-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S100000 : Shape := ⟨1, ![100000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128 .f32) (main_arg10 : FVec F S128x10 .f32) (main_arg11 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x10 .f32 := Host.absf main_arg10
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S32x64 .f32) (main_arg7 : FVec F S64 .f32) (main_arg8 : FVec F S64x128 .f32) (main_arg9 : FVec F S128 .f32) (main_arg10 : FVec F S128x10 .f32) (main_arg11 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg6
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x8 .f32) (main_arg1 : FVec F S100000x8 .f32) (main_arg2 : IVec S2x1600000 32) (main_arg3 : IVec S100000 32) (main_arg4 : FVec F S16x32 .f32) (main_arg5 : FVec F S32 .f32) (main_arg6 : FVec F S32x64 .f32) (main_arg7 : FVec F S64 .f32) (main_arg8 : FVec F S64x128 .f32) (main_arg9 : FVec F S128 .f32) (main_arg10 : FVec F S128x10 .f32) (main_arg11 : FVec F S10 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S100000x8 .f32 := Host.absf main_arg1
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  let main_v9 : FVec F S16x32 .f32 := Host.absf main_arg4
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_v13 main_v16
-- ==== Kernel.lean ====
abbrev S100000x8 : Shape := ⟨2, ![100000, 8]⟩
abbrev S2x1600000 : Shape := ⟨2, ![2, 1600000]⟩
abbrev S100000 : Shape := ⟨1, ![100000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x16 : Shape := ⟨2, ![100000, 16]⟩
abbrev S100000x32 : Shape := ⟨2, ![100000, 32]⟩
abbrev S10000x16 : Shape := ⟨2, ![10000, 16]⟩
abbrev S10000x32 : Shape := ⟨2, ![10000, 32]⟩
abbrev S1600000x32 : Shape := ⟨2, ![1600000, 32]⟩
abbrev S1x32 : Shape := ⟨2, ![1, 32]⟩
abbrev S10000x1 : Shape := ⟨2, ![10000, 1]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩
abbrev S100000x128 : Shape := ⟨2, ![100000, 128]⟩
abbrev S10000x128 : Shape := ⟨2, ![10000, 128]⟩
abbrev S1600000x128 : Shape := ⟨2, ![1600000, 128]⟩
abbrev S1x128 : Shape := ⟨2, ![1, 128]⟩
abbrev S100000x10 : Shape := ⟨2, ![100000, 10]⟩
abbrev S10000x10 : Shape := ⟨2, ![10000, 10]⟩
abbrev S1600000x10 : Shape := ⟨2, ![1600000, 10]⟩
abbrev S1x10 : Shape := ⟨2, ![1, 10]⟩
abbrev S64x10 : Shape := ⟨2, ![64, 10]⟩
abbrev S64x1 : Shape := ⟨2, ![64, 1]⟩

abbrev nBuf : Space → Nat
  | .hbm => 142
  | .vmem => 56
  | .smem => 0
  | _ => 0

abbrev hbmTy0_0 (i : Nat) : BufTy := match i % 128 with
  | 0 => ⟨S100000x8, .f32⟩
  | 1 => ⟨S100000x8, .f32⟩
  | 2 => ⟨S2x1600000, .i32⟩
  | 3 => ⟨S100000, .i32⟩
  | 4 => ⟨S16x32, .f32⟩
  | 5 => ⟨S32, .f32⟩
  | 6 => ⟨S32x64, .f32⟩
  | 7 => ⟨S64, .f32⟩
  | 8 => ⟨S64x128, .f32⟩
  | 9 => ⟨S128, .f32⟩
  | 10 => ⟨S128x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S100000, .f32⟩
  | 48 => ⟨S100000x1, .f32⟩
  | 49 => ⟨S100000x16, .f32⟩
  | 50 => ⟨S100000x32, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x32, .f32⟩
  | 61 => ⟨S1600000x32, .f32⟩
  | 62 => ⟨S1600000x32, .f32⟩
  | 63 => ⟨S_, .f32⟩
  | 64 => ⟨S100000x32, .f32⟩
  | 65 => ⟨S1600000x1, .i32⟩
  | 66 => ⟨S100000x32, .f32⟩
  | 67 => ⟨S1x32, .f32⟩
  | 68 => ⟨S100000x32, .f32⟩
  | 69 => ⟨S100000x64, .f32⟩
  | 70 => ⟨S1600000x1, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S1600000x64, .f32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S1x64, .f32⟩
  | 87 => ⟨S100000x64, .f32⟩
  | 88 => ⟨S100000x128, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S1600000x128, .f32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S1x128, .f32⟩
  | 106 => ⟨S100000x128, .f32⟩
  | 107 => ⟨S100000x10, .f32⟩
  | 108 => ⟨S1600000x1, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x10, .f32⟩
  | 118 => ⟨S1600000x10, .f32⟩
  | 119 => ⟨S1600000x10, .f32⟩
  | 120 => ⟨S_, .f32⟩
  | 121 => ⟨S100000x10, .f32⟩
  | 122 => ⟨S1600000x1, .i32⟩
  | 123 => ⟨S100000x10, .f32⟩
  | 124 => ⟨S1x10, .f32⟩
  | 125 => ⟨S100000x10, .f32⟩
  | 126 => ⟨S_, .f32⟩
  | 127 => ⟨S64x10, .f32⟩
  | _ => ⟨S100000x8, .f32⟩

abbrev hbmTy0_1 (i : Nat) : BufTy := match i % 128 with
  | 0 => ⟨S100000x1, .i32⟩
  | 1 => ⟨S64x10, .f32⟩
  | 2 => ⟨S_, .f32⟩
  | 3 => ⟨S100000, .f32⟩
  | 4 => ⟨S_, .f32⟩
  | 5 => ⟨S64, .f32⟩
  | 6 => ⟨S100000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x10, .f32⟩
  | 13 => ⟨S64x10, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S32x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x1, .f32⟩
  | .local _ .vmem, ⟨38, _⟩ => ⟨S10000x1, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S128x10, .f32⟩
  | .local _ .vmem, ⟨45, _⟩ => ⟨S10000x10, .f32⟩
  | .local _ .vmem, ⟨46, _⟩ => ⟨S10000x10, .f32⟩
  | .local _ .vmem, ⟨47, _⟩ => ⟨S10000x10, .f32⟩
  | .local _ .vmem, ⟨48, _⟩ => ⟨S10000x10, .f32⟩
  | .local _ .vmem, ⟨49, _⟩ => ⟨S10000x10, .f32⟩
  | .local _ .vmem, ⟨50, _⟩ => ⟨S10000x10, .f32⟩
  | .local _ .vmem, ⟨51, _⟩ => ⟨S10000x1, .f32⟩
  | .local _ .vmem, ⟨52, _⟩ => ⟨S10000x1, .f32⟩
  | .local _ .vmem, ⟨53, _⟩ => ⟨S1x10, .f32⟩
  | .local _ .vmem, ⟨54, _⟩ => ⟨S10000x10, .f32⟩
  | .local _ .vmem, ⟨55, _⟩ => ⟨S10000x10, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_c_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_18 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_19 : Ref sig .tc := ⟨.hbm, 130, rfl⟩
abbrev main_v97 : Ref sig .tc := ⟨.hbm, 131, rfl⟩
abbrev main_cst_20 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x10 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x10 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x10 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  concatenates_S100000x8_S100000x8_S100000x16_d1 : Shape.Concatenates [S100000x8, S100000x8] S100000x16 1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x10_S128x10_0_0 : ∀ a, (![0, 0] : Fin 2 → Nat) a + S128x10.size a ≤ S128x10.size a
  h_S128x10 : 0 < S128x10.numel
  inb_S10000x10_S10000x10_0_0 : ∀ a, (![0, 0] : Fin 2 → Nat) a + S10000x10.size a ≤ S10000x10.size a
  h_S10000x10 : 0 < S10000x10.numel
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  shapeCasts_S10_S1x10 : S10.ShapeCasts S1x10
  shapeCasts_S10000x10_S10000x10 : S10000x10.ShapeCasts S10000x10
  broadcasts_S10000x1_S10000x10 : S10000x1.Broadcasts S10000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  bcast_S_S64x10 : S_.BroadcastsInDim S64x10 (![] : Fin 0 → Fin S64x10.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x16_S16x32_S10000x32_1_0_0_1_n_n_wf : DotDims.WF S10000x16 S16x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x10_S10000x10_1_0_0_1_n_n_wf : DotDims.WF S10000x128 S128x10 S10000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  scatter_S64x10_S100000x1_S100000x10_1_0_0_1_wf : ScatterDims.WF S64x10 S100000x1 S100000x10 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S100000x128.size a
  hwx5_1 : ∀ i : grid5.Coords, EltTy.bits .f32 = 32 ∨ (Rect.block (s := S100000x128) S10000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x128.size a ≤ S100000x128.size a
  hwx5_4 : ∀ i : grid5.Coords, EltTy.bits .f32 = 32 ∨ (Rect.block (s := S100000x128) S10000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x10.size a ≤ S128x10.size a
  hwx6_1 : ∀ i : grid6.Coords, EltTy.bits .f32 = 32 ∨ (Rect.block (s := S128x10) S128x10.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x10.size a ≤ S100000x10.size a
  hwx6_2 : ∀ i : grid6.Coords, EltTy.bits .f32 = 32 ∨ (Rect.block (s := S100000x10) S10000x10.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x10.size a ≤ S100000x10.size a
  hwx7_0 : ∀ i : grid7.Coords, EltTy.bits .f32 = 32 ∨ (Rect.block (s := S100000x10) S10000x10.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x10.size a ≤ S100000x10.size a
  hwx7_1 : ∀ i : grid7.Coords, EltTy.bits .f32 = 32 ∨ (Rect.block (s := S100000x10) S10000x10.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S100000x1.size a
  hwx7_2 : ∀ i : grid7.Coords, EltTy.bits .f32 = 32 ∨ (Rect.block (s := S100000x1) S10000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x10.size a ≤ S1x10.size a
  hwx7_3 : ∀ i : grid7.Coords, EltTy.bits .f32 = 32 ∨ (Rect.block (s := S1x10) S1x10.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x10.size a ≤ S100000x10.size a
  hwx7_4 : ∀ i : grid7.Coords, EltTy.bits .f32 = 32 ∨ (Rect.block (s := S100000x10) S10000x10.size (cc7_transform_4 i) (hinb7_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf
def scatter_S64x10_S100000x1_S100000x10_1_0_0_1 : ScatterDims S64x10 S100000x1 S100000x10 where
  updateWindowDims := [1]
  insertedWindowDims := [0]
  scatterDimsToOperandDims := [0]
  indexVectorDim := 1
  wf := scatter_S64x10_S100000x1_S100000x10_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v29) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S10000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v77) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S10000x10.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S10000x10.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S10000x10.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v28) S10000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v92) S1x10.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v93) S10000x10.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S100000 : Shape := ⟨1, ![100000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x16 : Shape := ⟨2, ![100000, 16]⟩
abbrev S100000x32 : Shape := ⟨2, ![100000, 32]⟩
abbrev S1600000x32 : Shape := ⟨2, ![1600000, 32]⟩
abbrev S100000x1 : Shape := ⟨2, ![100000, 1]⟩
abbrev S1x32 : Shape := ⟨2, ![1, 32]⟩
abbrev S100000x64 : Shape := ⟨2, ![100000, 64]⟩
abbrev S1600000x64 : Shape := ⟨2, ![1600000, 64]⟩
abbrev S1x64 : Shape := ⟨2, ![1, 64]⟩
abbrev S100000x128 : Shape := ⟨2, ![100000, 128]⟩
abbrev S1600000x128 : Shape := ⟨2, ![1600000, 128]⟩
abbrev S1x128 : Shape := ⟨2, ![1, 128]⟩
abbrev S100000x10 : Shape := ⟨2, ![100000, 10]⟩
abbrev S1600000x10 : Shape := ⟨2, ![1600000, 10]⟩
abbrev S1x10 : Shape := ⟨2, ![1, 10]⟩
abbrev S64x10 : Shape := ⟨2, ![64, 10]⟩
abbrev S64x1 : Shape := ⟨2, ![64, 1]⟩

abbrev nBuf : Space → Nat
  | .hbm => 230
  | .vmem => 0
  | .smem => 0
  | _ => 0

abbrev hbmTy0_0 (i : Nat) : BufTy := match i % 128 with
  | 0 => ⟨S100000x8, .f32⟩
  | 1 => ⟨S100000x8, .f32⟩
  | 2 => ⟨S2x1600000, .i32⟩
  | 3 => ⟨S100000, .i32⟩
  | 4 => ⟨S16x32, .f32⟩
  | 5 => ⟨S32, .f32⟩
  | 6 => ⟨S32x64, .f32⟩
  | 7 => ⟨S64, .f32⟩
  | 8 => ⟨S64x128, .f32⟩
  | 9 => ⟨S128, .f32⟩
  | 10 => ⟨S128x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x16, .f32⟩
  | 29 => ⟨S100000x32, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x32, .f32⟩
  | 59 => ⟨S1600000x32, .f32⟩
  | 60 => ⟨S1600000x32, .f32⟩
  | 61 => ⟨S_, .f32⟩
  | 62 => ⟨S100000x32, .f32⟩
  | 63 => ⟨S1600000x1, .i32⟩
  | 64 => ⟨S100000x32, .f32⟩
  | 65 => ⟨S100000, .f32⟩
  | 66 => ⟨S100000x1, .f32⟩
  | 67 => ⟨S100000x32, .f32⟩
  | 68 => ⟨S100000x32, .f32⟩
  | 69 => ⟨S100000x32, .f32⟩
  | 70 => ⟨S1x32, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S100000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S1600000, .f32⟩
  | 96 => ⟨S1600000x1, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000, .f32⟩
  | 113 => ⟨S100000x1, .f32⟩
  | 114 => ⟨S100000x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S100000x128, .f32⟩
  | 124 => ⟨S_, .i32⟩
  | 125 => ⟨S1600000, .i32⟩
  | 126 => ⟨S1600000, .i1⟩
  | 127 => ⟨S_, .i32⟩
  | _ => ⟨S100000x8, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S1600000, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x128, .f32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S100000, .f32⟩
  | 32 => ⟨S100000x1, .f32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x10, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S1600000x1, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x10, .f32⟩
  | 72 => ⟨S1600000x10, .f32⟩
  | 73 => ⟨S1600000x10, .f32⟩
  | 74 => ⟨S_, .f32⟩
  | 75 => ⟨S100000x10, .f32⟩
  | 76 => ⟨S1600000x1, .i32⟩
  | 77 => ⟨S100000x10, .f32⟩
  | 78 => ⟨S100000, .f32⟩
  | 79 => ⟨S100000x1, .f32⟩
  | 80 => ⟨S100000x10, .f32⟩
  | 81 => ⟨S100000x10, .f32⟩
  | 82 => ⟨S100000x10, .f32⟩
  | 83 => ⟨S1x10, .f32⟩
  | 84 => ⟨S100000x10, .f32⟩
  | 85 => ⟨S100000x10, .f32⟩
  | 86 => ⟨S_, .f32⟩
  | 87 => ⟨S64x10, .f32⟩
  | 88 => ⟨S100000x1, .i32⟩
  | 89 => ⟨S64x10, .f32⟩
  | 90 => ⟨S_, .f32⟩
  | 91 => ⟨S100000, .f32⟩
  | 92 => ⟨S_, .f32⟩
  | 93 => ⟨S64, .f32⟩
  | 94 => ⟨S100000x1, .i32⟩
  | 95 => ⟨S64, .f32⟩
  | 96 => ⟨S_, .f32⟩
  | 97 => ⟨S64, .f32⟩
  | 98 => ⟨S64, .f32⟩
  | 99 => ⟨S64x1, .f32⟩
  | 100 => ⟨S64x10, .f32⟩
  | 101 => ⟨S64x10, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_cst : Ref sig .tc := ⟨.hbm, 73, rfl⟩
abbrev main_call0_v0 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call1_cst : Ref sig .tc := ⟨.hbm, 120, rfl⟩
abbrev main_call1_v0 : Ref sig .tc := ⟨.hbm, 121, rfl⟩
abbrev main_v88 : Ref sig .tc := ⟨.hbm, 122, rfl⟩
abbrev main_v89 : Ref sig .tc := ⟨.hbm, 123, rfl⟩
abbrev main_c_16 : Ref sig .tc := ⟨.hbm, 124, rfl⟩
abbrev main_v90 : Ref sig .tc := ⟨.hbm, 125, rfl⟩
abbrev main_v91 : Ref sig .tc := ⟨.hbm, 126, rfl⟩
abbrev main_c_17 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_18 : Ref sig .tc := ⟨.hbm, 133, rfl⟩
abbrev main_v97 : Ref sig .tc := ⟨.hbm, 134, rfl⟩
abbrev main_v98 : Ref sig .tc := ⟨.hbm, 135, rfl⟩
abbrev main_c_19 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_20 : Ref sig .tc := ⟨.hbm, 144, rfl⟩
abbrev main_v106 : Ref sig .tc := ⟨.hbm, 145, rfl⟩
abbrev main_v107 : Ref sig .tc := ⟨.hbm, 146, rfl⟩
abbrev main_c_21 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_22 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_call2_cst : Ref sig .tc := ⟨.hbm, 167, rfl⟩
abbrev main_call2_v0 : Ref sig .tc := ⟨.hbm, 168, rfl⟩
abbrev main_v126 : Ref sig .tc := ⟨.hbm, 169, rfl⟩
abbrev main_v127 : Ref sig .tc := ⟨.hbm, 170, rfl⟩
abbrev main_c_23 : Ref sig .tc := ⟨.hbm, 171, rfl⟩
abbrev main_v128 : Ref sig .tc := ⟨.hbm, 172, rfl⟩
abbrev main_v129 : Ref sig .tc := ⟨.hbm, 173, rfl⟩
abbrev main_c_24 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_25 : Ref sig .tc := ⟨.hbm, 180, rfl⟩
abbrev main_v135 : Ref sig .tc := ⟨.hbm, 181, rfl⟩
abbrev main_v136 : Ref sig .tc := ⟨.hbm, 182, rfl⟩
abbrev main_c_26 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_c_27 : Ref sig .tc := ⟨.hbm, 191, rfl⟩
abbrev main_v144 : Ref sig .tc := ⟨.hbm, 192, rfl⟩
abbrev main_v145 : Ref sig .tc := ⟨.hbm, 193, rfl⟩
abbrev main_c_28 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_29 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_cst_30 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_cst_31 : Ref sig .tc := ⟨.hbm, 218, rfl⟩
abbrev main_v167 : Ref sig .tc := ⟨.hbm, 219, rfl⟩
abbrev main_cst_32 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_33 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S100000x8_S100000x8_S100000x16_d1 : Shape.Concatenates [S100000x8, S100000x8] S100000x16 1
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S64x10 : S_.BroadcastsInDim S64x10 (![] : Fin 0 → Fin S64x10.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  scatter_S100000_S1600000x1_S1600000_n_0_0_1_wf : ScatterDims.WF S100000 S1600000x1 S1600000 [] [0] [0] 1
  dot_S100000x16_S16x32_S100000x32_1_0_0_1_n_n_wf : DotDims.WF S100000x16 S16x32 S100000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x10_S100000x10_1_0_0_1_n_n_wf : DotDims.WF S100000x128 S128x10 S100000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  scatter_S64x10_S100000x1_S100000x10_1_0_0_1_wf : ScatterDims.WF S64x10 S100000x1 S100000x10 [1] [0] [0] 1
  scatter_S64_S100000x1_S100000_n_0_0_1_wf : ScatterDims.WF S64 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf
def scatter_S64x10_S100000x1_S100000x10_1_0_0_1 : ScatterDims S64x10 S100000x1 S100000x10 where
  updateWindowDims := [1]
  insertedWindowDims := [0]
  scatterDimsToOperandDims := [0]
  indexVectorDim := 1
  wf := scatter_S64x10_S100000x1_S100000x10_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.RefStages.lean ====
/-
  The reference's run and its stages: the generated run of the host program (every weakly fair execution ends with
  the result at the operations' composed term of the arguments) and the generated reading of that term one
  operation at a time, each stage a function of the arguments. The bridge states what the kernel's buffers hold
  at each segment boundary against these stages.
-/
import proofs.«137348_j2937757630534_1_alg».proof.Defs
import proofs.«137348_j2937757630534_1_alg».proof.Proof.Gen.ReferenceIdeal.Run
import proofs.«137348_j2937757630534_1_alg».proof.Proof.Gen.ReferenceIdeal.Read
-- ==== Proof.KernelRun.lean ====
/-
  The idealized kernel's run, with its result kept.

  The program is fourteen segments: six stretches of host operations and eight tiled regions. The contents of
  the TensorCore's buffers at each segment boundary are a fold from the launch memory — a stretch applies its
  operations, a region replaces its arrays by what its write-backs leave — and every weakly fair execution
  terminates, without a fault, with every unscoped buffer at the last boundary's contents. Read at the result
  buffer, that is the program's value; read at the arguments, the launch contents.
-/
import proofs.«137348_j2937757630534_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents
    and the argument arrays as launched. -/
theorem run_value : θ_run defs (onTc (τ := τ) (main (F := F))) ⟨m, fun _ => 0, ρ⟩ (fun r => ∀ c : Dev nD,
      r.2.mem ((c.tc : Thread nD τ).loc main_v105) = W14 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v105 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.RunValue

end
-- ==== Proof.LayerSpec.lean ====
/-
  One graph-convolution layer, as two functions of whole arrays.

  With n = 100000 nodes, a layer takes the node features h : [n, K], a weight W : [K, N], the aggregated
  messages agg : [n, N], the squared inverse-root degrees d : [n] and a bias b : [N]:

    lin   h W        = h · W                                   (the dense product, entry (g, q) = ∑ k, h(g,k) · W(k,q))
    comb  agg y d b  = max ((agg + d ⊗ 1 · y) + 1 ⊗ b, 0)      (entry (g, q) = max ((agg(g,q) + d(g) · y(g,q)) + b(q), 0))

  and the last layer's combine has no maximum. They are spelt with the host operations the reference applies,
  so that a stage of the reference IS one of these functions of the stages before it; the kernel's regions are
  shown to compute the same functions of the arrays they find.
-/
import proofs.«137348_j2937757630534_1_alg».proof.ReferenceIdeal
import proofs.«137348_j2937757630534_1_alg».proof.Proof.Gen.ReferenceIdeal

noncomputable section

namespace Cert.Layer

open Idealize.ShloMosaic Cert.ReferenceIdeal Cert.ReferenceIdeal.Facts₀

variable {F : FTy → Type} [FloatOps F]

/-- The dense product of layer 1: [100000, 16] by [16, 32]. -/
def lin1 (h : (⟨S100000x16, .f32⟩ : BufTy).Contents (Elt F)) (w : (⟨S16x32, .f32⟩ : BufTy).Contents (Elt F)) :
    (⟨S100000x32, .f32⟩ : BufTy).Contents (Elt F) :=
  Host.dotGeneral dot_S100000x16_S16x32_S100000x32_1_0_0_1_n_n none h w

/-- The combine of layer 1: messages plus the self-loop term plus the bias, then the maximum with zero. -/
def comb1 (agg y : (⟨S100000x32, .f32⟩ : BufTy).Contents (Elt F)) (d : (⟨S100000, .f32⟩ : BufTy).Contents (Elt F))
    (b : (⟨S32, .f32⟩ : BufTy).Contents (Elt F)) : (⟨S100000x32, .f32⟩ : BufTy).Contents (Elt F) :=
  maximumf (addf (addf agg (mulf (broadcastInDim S100000x32 ![0, 1] bcast_S100000x1_S100000x32_0_1
      (broadcastInDim S100000x1 ![0] bcast_S100000_S100000x1_0 d)) y))
    (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- The dense product of layer 2: [100000, 32] by [32, 64]. -/
def lin2 (h : (⟨S100000x32, .f32⟩ : BufTy).Contents (Elt F)) (w : (⟨S32x64, .f32⟩ : BufTy).Contents (Elt F)) :
    (⟨S100000x64, .f32⟩ : BufTy).Contents (Elt F) :=
  Host.dotGeneral dot_S100000x32_S32x64_S100000x64_1_0_0_1_n_n none h w

/-- The combine of layer 2: messages plus the self-loop term plus the bias, then the maximum with zero. -/
def comb2 (agg y : (⟨S100000x64, .f32⟩ : BufTy).Contents (Elt F)) (d : (⟨S100000, .f32⟩ : BufTy).Contents (Elt F))
    (b : (⟨S64, .f32⟩ : BufTy).Contents (Elt F)) : (⟨S100000x64, .f32⟩ : BufTy).Contents (Elt F) :=
  maximumf (addf (addf agg (mulf (broadcastInDim S100000x64 ![0, 1] bcast_S100000x1_S100000x64_0_1
      (broadcastInDim S100000x1 ![0] bcast_S100000_S100000x1_0 d)) y))
    (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The dense product of layer 3: [100000, 64] by [64, 128]. -/
def lin3 (h : (⟨S100000x64, .f32⟩ : BufTy).Contents (Elt F)) (w : (⟨S64x128, .f32⟩ : BufTy).Contents (Elt F)) :
    (⟨S100000x128, .f32⟩ : BufTy).Contents (Elt F) :=
  Host.dotGeneral dot_S100000x64_S64x128_S100000x128_1_0_0_1_n_n none h w

/-- The combine of layer 3: messages plus the self-loop term plus the bias, then the maximum with zero. -/
def comb3 (agg y : (⟨S100000x128, .f32⟩ : BufTy).Contents (Elt F)) (d : (⟨S100000, .f32⟩ : BufTy).Contents (Elt F))
    (b : (⟨S128, .f32⟩ : BufTy).Contents (Elt F)) : (⟨S100000x128, .f32⟩ : BufTy).Contents (Elt F) :=
  maximumf (addf (addf agg (mulf (broadcastInDim S100000x128 ![0, 1] bcast_S100000x1_S100000x128_0_1
      (broadcastInDim S100000x1 ![0] bcast_S100000_S100000x1_0 d)) y))
    (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The dense product of layer 4: [100000, 128] by [128, 10]. -/
def lin4 (h : (⟨S100000x128, .f32⟩ : BufTy).Contents (Elt F)) (w : (⟨S128x10, .f32⟩ : BufTy).Contents (Elt F)) :
    (⟨S100000x10, .f32⟩ : BufTy).Contents (Elt F) :=
  Host.dotGeneral dot_S100000x128_S128x10_S100000x10_1_0_0_1_n_n none h w

/-- The combine of layer 4: messages plus the self-loop term plus the bias (no maximum in the last layer). -/
def comb4 (agg y : (⟨S100000x10, .f32⟩ : BufTy).Contents (Elt F)) (d : (⟨S100000, .f32⟩ : BufTy).Contents (Elt F))
    (b : (⟨S10, .f32⟩ : BufTy).Contents (Elt F)) : (⟨S100000x10, .f32⟩ : BufTy).Contents (Elt F) :=
  addf (addf agg (mulf (broadcastInDim S100000x10 ![0, 1] bcast_S100000x1_S100000x10_0_1
      (broadcastInDim S100000x1 ![0] bcast_S100000_S100000x1_0 d)) y))
    (broadcastInDim S100000x10 ![0, 1] bcast_S1x10_S100000x10_0_1 (broadcastInDim S1x10 ![1] bcast_S10_S1x10_1 b))

end Cert.Layer

end
-- ==== Proof.Carry.lean ====
/-
  What each stretch of host operations writes, and what therefore survives it.

  After the first stretch the program never writes again the edge endpoints, the edge coefficient, the column of
  squared inverse-root degrees, or any argument: every later stretch writes only its own fresh buffers and every
  region only its result array. So at each later segment boundary these buffers read what they read after the
  first stretch; and a layer's dense product survives the stretch that gathers from it.
-/
import proofs.«137348_j2937757630534_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]

/-- The buffers the stretch writes, one per operation. -/
abbrev written1 : List (Ref sig .tc) := [main_v31, main_c_6, main_v32, main_v33, main_c_7, main_v34, main_v35, main_v36, main_v37, main_v38, main_v39, main_v40, main_cst_8, main_v41, main_v42, main_v43, main_v44]
theorem writes1 : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- The buffers the stretch writes, one per operation. -/
abbrev written3 : List (Ref sig .tc) := [main_v47, main_c_9, main_v48, main_v49, main_c_10, main_v50, main_v51, main_v52, main_v53, main_v54, main_v55, main_v56, main_cst_11, main_v57, main_v58, main_v59, main_v60]
theorem writes3 : (hostOps3 : List (HloOp τ sig (Elt F))).Forall fun op =>
    op.writes ⊆ (written3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- The buffers the stretch writes, one per operation. -/
abbrev written5 : List (Ref sig .tc) := [main_v63, main_c_12, main_v64, main_v65, main_c_13, main_v66, main_v67, main_v68, main_v69, main_v70, main_v71, main_v72, main_cst_14, main_v73, main_v74, main_v75, main_v76]
theorem writes5 : (hostOps5 : List (HloOp τ sig (Elt F))).Forall fun op =>
    op.writes ⊆ (written5.map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- The buffers the stretch writes, one per operation. -/
abbrev written7 : List (Ref sig .tc) := [main_v79, main_c_15, main_v80, main_v81, main_c_16, main_v82, main_v83, main_v84, main_v85, main_v86, main_v87, main_v88, main_cst_17, main_v89, main_v90, main_v91, main_v92]
theorem writes7 : (hostOps7 : List (HloOp τ sig (Elt F))).Forall fun op =>
    op.writes ⊆ (written7.map (Proc.devRef (τ := τ) .tc)).toFinset := by
  simp only [hostOps7, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- The buffers the stretch writes, one per operation. -/
abbrev written8 : List (Ref sig .tc) := [main_cst_18, main_v94, main_v95, main_v96, main_cst_19, main_v97, main_cst_20, main_v98, main_v99, main_v100, main_cst_21, main_v101, main_v102, main_v103, main_v104, main_v105]
theorem writes8 : (hostOps8 : List (HloOp τ sig (Elt F))).Forall fun op =>
    op.writes ⊆ (written8.map (Proc.devRef (τ := τ) .tc)).toFinset := by
  simp only [hostOps8, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

/-- The buffers that are final after the first stretch: the edge endpoints, the edge coefficient, the column of squared
    inverse-root degrees, and the arguments the later segments read. -/
abbrev kept : List (Ref sig .tc) := [main_v1, main_v3, main_v26, main_v28, main_arg3, main_arg5, main_arg6, main_arg7, main_arg8, main_arg9, main_arg10, main_arg11]

theorem kept_written1 : ∀ b ∈ kept, b ∉ written1 := by decide
theorem kept_written3 : ∀ b ∈ kept, b ∉ written3 := by decide
theorem kept_written5 : ∀ b ∈ kept, b ∉ written5 := by decide
theorem kept_written7 : ∀ b ∈ kept, b ∉ written7 := by decide
theorem kept_written8 : ∀ b ∈ kept, b ∉ written8 := by decide
theorem kept_region0 : ∀ b ∈ kept, ∀ w, Pipeline.arrRef spec0 w ≠ b := by decide
theorem kept_region1 : ∀ b ∈ kept, b ≠ main_v28 → ∀ w, Pipeline.arrRef spec1 w ≠ b := by decide
theorem kept_region2 : ∀ b ∈ kept, b ≠ main_arg6 → ∀ w, Pipeline.arrRef spec2 w ≠ b := by decide
theorem kept_region3 : ∀ b ∈ kept, b ≠ main_v28 → ∀ w, Pipeline.arrRef spec3 w ≠ b := by decide
theorem kept_region4 : ∀ b ∈ kept, b ≠ main_arg8 → ∀ w, Pipeline.arrRef spec4 w ≠ b := by decide
theorem kept_region5 : ∀ b ∈ kept, b ≠ main_v28 → ∀ w, Pipeline.arrRef spec5 w ≠ b := by decide
theorem kept_region6 : ∀ b ∈ kept, b ≠ main_arg10 → ∀ w, Pipeline.arrRef spec6 w ≠ b := by decide
theorem kept_region7 : ∀ b ∈ kept, b ≠ main_v28 → ∀ w, Pipeline.arrRef spec7 w ≠ b := by decide

variable (m : (ℓ : Loc nD τ sig) → Buf (Elt F) ℓ) (ρ : Dev nD → PrngReg) (c : Dev nD)

/-! A region leaves a kept buffer alone: either the buffer is none of the region's arrays, or it is one of its INPUT
    arrays, which the region reads and never writes back. -/

theorem region0_keeps (b : Ref sig .tc) (hb : b ∈ kept) : W2 m ρ c (Proc.devRef .tc b) = W1 m ρ c (Proc.devRef .tc b) :=
  W2_of_ne m ρ c b (kept_region0 b hb)
theorem region1_keeps (b : Ref sig .tc) (hb : b ∈ kept) : W4 m ρ c (Proc.devRef .tc b) = W3 m ρ c (Proc.devRef .tc b) := by
  by_cases h : b = main_v28
  · subst h
    exact (W4_arr m ρ c 2).trans (((dat1 (V3 m ρ) c).arrAt_in 2 rfl _).trans (A_eq1 (V3 m ρ) c 2))
  · exact W4_of_ne m ρ c b (kept_region1 b hb h)
theorem region2_keeps (b : Ref sig .tc) (hb : b ∈ kept) : W5 m ρ c (Proc.devRef .tc b) = W4 m ρ c (Proc.devRef .tc b) := by
  by_cases h : b = main_arg6
  · subst h
    exact (W5_arr m ρ c 1).trans (((dat2 (V4 m ρ) c).arrAt_in 1 rfl _).trans (A_eq2 (V4 m ρ) c 1))
  · exact W5_of_ne m ρ c b (kept_region2 b hb h)
theorem region3_keeps (b : Ref sig .tc) (hb : b ∈ kept) : W7 m ρ c (Proc.devRef .tc b) = W6 m ρ c (Proc.devRef .tc b) := by
  by_cases h : b = main_v28
  · subst h
    exact (W7_arr m ρ c 2).trans (((dat3 (V6 m ρ) c).arrAt_in 2 rfl _).trans (A_eq3 (V6 m ρ) c 2))
  · exact W7_of_ne m ρ c b (kept_region3 b hb h)
theorem region4_keeps (b : Ref sig .tc) (hb : b ∈ kept) : W8 m ρ c (Proc.devRef .tc b) = W7 m ρ c (Proc.devRef .tc b) := by
  by_cases h : b = main_arg8
  · subst h
    exact (W8_arr m ρ c 1).trans (((dat4 (V7 m ρ) c).arrAt_in 1 rfl _).trans (A_eq4 (V7 m ρ) c 1))
  · exact W8_of_ne m ρ c b (kept_region4 b hb h)
theorem region5_keeps (b : Ref sig .tc) (hb : b ∈ kept) : W10 m ρ c (Proc.devRef .tc b) = W9 m ρ c (Proc.devRef .tc b) := by
  by_cases h : b = main_v28
  · subst h
    exact (W10_arr m ρ c 2).trans (((dat5 (V9 m ρ) c).arrAt_in 2 rfl _).trans (A_eq5 (V9 m ρ) c 2))
  · exact W10_of_ne m ρ c b (kept_region5 b hb h)
theorem region6_keeps (b : Ref sig .tc) (hb : b ∈ kept) : W11 m ρ c (Proc.devRef .tc b) = W10 m ρ c (Proc.devRef .tc b) := by
  by_cases h : b = main_arg10
  · subst h
    exact (W11_arr m ρ c 1).trans (((dat6 (V10 m ρ) c).arrAt_in 1 rfl _).trans (A_eq6 (V10 m ρ) c 1))
  · exact W11_of_ne m ρ c b (kept_region6 b hb h)
theorem region7_keeps (b : Ref sig .tc) (hb : b ∈ kept) : W13 m ρ c (Proc.devRef .tc b) = W12 m ρ c (Proc.devRef .tc b) := by
  by_cases h : b = main_v28
  · subst h
    exact (W13_arr m ρ c 2).trans (((dat7 (V12 m ρ) c).arrAt_in 2 rfl _).trans (A_eq7 (V12 m ρ) c 2))
  · exact W13_of_ne m ρ c b (kept_region7 b hb h)

/-- A kept buffer at boundary 2 reads what it read after the first stretch. -/
theorem kept2 (b : Ref sig .tc) (hb : b ∈ kept) : W2 m ρ c (Proc.devRef .tc b) = W1 m ρ c (Proc.devRef .tc b) :=
  region0_keeps m ρ c b hb
/-- A kept buffer at boundary 3 reads what it read after the first stretch. -/
theorem kept3 (b : Ref sig .tc) (hb : b ∈ kept) : W3 m ρ c (Proc.devRef .tc b) = W1 m ρ c (Proc.devRef .tc b) :=
  (StableHlo.after_of_writes_sub hostOps1 (W2 m ρ c) writes1 (kept_written1 b hb)).trans (kept2 m ρ c b hb)
/-- A kept buffer at boundary 4 reads what it read after the first stretch. -/
theorem kept4 (b : Ref sig .tc) (hb : b ∈ kept) : W4 m ρ c (Proc.devRef .tc b) = W1 m ρ c (Proc.devRef .tc b) :=
  (region1_keeps m ρ c b hb).trans (kept3 m ρ c b hb)
/-- A kept buffer at boundary 5 reads what it read after the first stretch. -/
theorem kept5 (b : Ref sig .tc) (hb : b ∈ kept) : W5 m ρ c (Proc.devRef .tc b) = W1 m ρ c (Proc.devRef .tc b) :=
  (region2_keeps m ρ c b hb).trans (kept4 m ρ c b hb)
/-- A kept buffer at boundary 6 reads what it read after the first stretch. -/
theorem kept6 (b : Ref sig .tc) (hb : b ∈ kept) : W6 m ρ c (Proc.devRef .tc b) = W1 m ρ c (Proc.devRef .tc b) :=
  (StableHlo.after_of_writes_sub hostOps3 (W5 m ρ c) writes3 (kept_written3 b hb)).trans (kept5 m ρ c b hb)
/-- A kept buffer at boundary 7 reads what it read after the first stretch. -/
theorem kept7 (b : Ref sig .tc) (hb : b ∈ kept) : W7 m ρ c (Proc.devRef .tc b) = W1 m ρ c (Proc.devRef .tc b) :=
  (region3_keeps m ρ c b hb).trans (kept6 m ρ c b hb)
/-- A kept buffer at boundary 8 reads what it read after the first stretch. -/
theorem kept8 (b : Ref sig .tc) (hb : b ∈ kept) : W8 m ρ c (Proc.devRef .tc b) = W1 m ρ c (Proc.devRef .tc b) :=
  (region4_keeps m ρ c b hb).trans (kept7 m ρ c b hb)
/-- A kept buffer at boundary 9 reads what it read after the first stretch. -/
theorem kept9 (b : Ref sig .tc) (hb : b ∈ kept) : W9 m ρ c (Proc.devRef .tc b) = W1 m ρ c (Proc.devRef .tc b) :=
  (StableHlo.after_of_writes_sub hostOps5 (W8 m ρ c) writes5 (kept_written5 b hb)).trans (kept8 m ρ c b hb)
/-- A kept buffer at boundary 10 reads what it read after the first stretch. -/
theorem kept10 (b : Ref sig .tc) (hb : b ∈ kept) : W10 m ρ c (Proc.devRef .tc b) = W1 m ρ c (Proc.devRef .tc b) :=
  (region5_keeps m ρ c b hb).trans (kept9 m ρ c b hb)
/-- A kept buffer at boundary 11 reads what it read after the first stretch. -/
theorem kept11 (b : Ref sig .tc) (hb : b ∈ kept) : W11 m ρ c (Proc.devRef .tc b) = W1 m ρ c (Proc.devRef .tc b) :=
  (region6_keeps m ρ c b hb).trans (kept10 m ρ c b hb)
/-- A kept buffer at boundary 12 reads what it read after the first stretch. -/
theorem kept12 (b : Ref sig .tc) (hb : b ∈ kept) : W12 m ρ c (Proc.devRef .tc b) = W1 m ρ c (Proc.devRef .tc b) :=
  (StableHlo.after_of_writes_sub hostOps7 (W11 m ρ c) writes7 (kept_written7 b hb)).trans (kept11 m ρ c b hb)
/-- A kept buffer at boundary 13 reads what it read after the first stretch. -/
theorem kept13 (b : Ref sig .tc) (hb : b ∈ kept) : W13 m ρ c (Proc.devRef .tc b) = W1 m ρ c (Proc.devRef .tc b) :=
  (region7_keeps m ρ c b hb).trans (kept12 m ρ c b hb)

/-- A layer's dense product survives the stretch that gathers from it. -/
theorem product1_kept : W3 m ρ c (Proc.devRef .tc main_v30) = W2 m ρ c (Proc.devRef .tc main_v30) :=
  StableHlo.after_of_writes_sub hostOps1 (W2 m ρ c) writes1 (by decide)
theorem product2_kept : W6 m ρ c (Proc.devRef .tc main_v46) = W5 m ρ c (Proc.devRef .tc main_v46) :=
  StableHlo.after_of_writes_sub hostOps3 (W5 m ρ c) writes3 (by decide)
theorem product3_kept : W9 m ρ c (Proc.devRef .tc main_v62) = W8 m ρ c (Proc.devRef .tc main_v62) :=
  StableHlo.after_of_writes_sub hostOps5 (W8 m ρ c) writes5 (by decide)
theorem product4_kept : W12 m ρ c (Proc.devRef .tc main_v78) = W11 m ρ c (Proc.devRef .tc main_v78) :=
  StableHlo.after_of_writes_sub hostOps7 (W11 m ρ c) writes7 (by decide)

end Cert.KernelIdeal.Carry

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LinRegion0.lean ====
/-
  The first dense product, tile by tile. The region walks the 100000 rows of the node features in ten tiles of
  10000 rows; at tile t it multiplies rows 10000·t … 10000·t + 9999 by the whole weight matrix and writes the
  product back as the same rows of the result. Entry (p, q) of a tile's product reads only row p of the tile,
  which is row 10000·t + p of the whole matrix, so the ten written tiles together are the product of the whole
  matrices.
-/
import proofs.«137348_j2937757630534_1_alg».proof.Proof.Gen.KernelIdeal.Frame
import proofs.«137348_j2937757630534_1_alg».proof.Proof.LayerSpec
import proofs.«137348_j2937757630534_1_alg».proof.Proof.LibPlainDot
import proofs.«137348_j2937757630534_1_alg».proof.Proof.LibHostDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two products at an entry -/

/-- A tile's product at entry (p, q): the sum over k of the tile's (p, k) times the weight's (k, q). -/
theorem lin0_tile_apply (x0 : Vec Ideal S10000x16 .f32) (x1 : Vec Ideal S16x32 .f32) (p : Fin 10000) (q : Fin 32) :
    k0_pay1 (F := Ideal) x0 x1 (ix2 p q) = ∑ k : Fin 16, x0 (ix2 p k) * x1 (ix2 k q) := by
  unfold k0_pay1
  rw [shapeCast_self]
  exact Cert.PlainDot.matmul_zero_plain_apply none x0 x1 p q

/-- The whole product at entry (g, q): the sum over k of the left array's (g, k) times the weight's (k, q). -/
theorem lin0_whole_apply (h : (⟨S100000x16, .f32⟩ : BufTy).Contents (Elt Ideal)) (w : (⟨S16x32, .f32⟩ : BufTy).Contents (Elt Ideal))
    (g : Fin 100000) (q : Fin 32) :
    Cert.Layer.lin1 (F := Ideal) h w (ix2 g q) = ∑ k : Fin 16, h (ix2 g k) * w (ix2 k q) := by
  unfold Cert.Layer.lin1
  exact Cert.HostDot.dotGeneral_plain_apply none h w g q

/-! ## Where a tile sits -/

theorem lin0_hz : (![0, 0] : Fin 2 → Nat) = fun _ => 0 := funext fun a => by fin_cases a <;> rfl

/-- The index maps over the ten points: the left array's tile and the result's tile go down the rows with the
    point, the weight's block is the whole weight at every point. -/
theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of tile t is row 10000·t + p of the whole array. -/
def lin0_row (t : Fin cfg0.N) (p : Fin 10000) : Fin 100000 :=
  ⟨10000 * t.val + p.val, by have ht : t.val < 10 := t.isLt.trans_eq N_0; have hp := p.isLt; omega⟩

/-- Entry (p, k) of the left array's tile at point t is entry (10000·t + p, k) of the whole left array. -/
theorem lin0_left_apply (V : (c : Dev nD) → (b : Ref sig .tc) → Buf (Elt Ideal) ((c : Thread nD τ).loc b)) (c : Dev nD)
    (t : Fin cfg0.N) (p : Fin 10000) (k : Fin 16) :
    iblk0 (F := Ideal) V c 0 t (ix2 p k) = V c main_v29 (ix2 (lin0_row t p) k) := by
  show V c main_v29 (((cfg0.win 0).blk t).view.emb (ix2 p k)) = _
  refine congrArg (V c main_v29) ?_
  obtain ⟨e0, e1, -⟩ := lin0_idx t
  funext a; apply Fin.ext
  match a with
  | ⟨0, _⟩ => show win0_0.index t (0 : Fin 2) * 10000 + 1 * p.val = 10000 * t.val + p.val; omega
  | ⟨1, _⟩ => show win0_0.index t (1 : Fin 2) * 16 + 1 * k.val = k.val; omega

/-- The weight's block at every point is the whole weight. -/
theorem lin0_right_apply (V : (c : Dev nD) → (b : Ref sig .tc) → Buf (Elt Ideal) ((c : Thread nD τ).loc b)) (c : Dev nD)
    (t : Fin cfg0.N) (k : Fin 16) (q : Fin 32) :
    iblk0 (F := Ideal) V c 1 t (ix2 k q) = V c main_arg4 (ix2 k q) := by
  show V c main_arg4 (((cfg0.win 1).blk t).view.emb (ix2 k q)) = _
  refine congrArg (V c main_arg4) ?_
  obtain ⟨-, -, e2, e3, -⟩ := lin0_idx t
  funext a; apply Fin.ext
  match a with
  | ⟨0, _⟩ => show win0_1.index t (0 : Fin 2) * 16 + 1 * k.val = k.val; omega
  | ⟨1, _⟩ => show win0_1.index t (1 : Fin 2) * 32 + 1 * q.val = q.val; omega

/-- Entry (p, q) of the result's tile at point t sits at (10000·t + p, q) of the whole result. -/
theorem lin0_out_emb (t : Fin cfg0.N) (p : Fin 10000) (q : Fin 32) :
    ((cfg0.win 2).blk t).view.emb (ix2 p q) = ix2 (lin0_row t p) q := by
  obtain ⟨-, -, -, -, e4, e5⟩ := lin0_idx t
  funext a; apply Fin.ext
  match a with
  | ⟨0, _⟩ => show win0_2.index t (0 : Fin 2) * 10000 + 1 * p.val = 10000 * t.val + p.val; omega
  | ⟨1, _⟩ => show win0_2.index t (1 : Fin 2) * 32 + 1 * q.val = q.val; omega

/-! ## What a point writes back -/

/-- Point t writes back tile t of the product of the whole arrays. -/
theorem lin0_flushed (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Layer.lin1 (F := Ideal) (V c main_v29) (V c main_arg4)) := by
  show (cfg0.win 2).cut (grid0.coords t) ((dat0 (F := Ideal) V c).after 2 t) = _
  rw [after0_2]
  unfold out0_2
  rw [View.canon_unit_zero lin0_hz]
  simp only [View.ld_unit_zero (S := S10000x16) lin0_hz, View.ld_unit_zero (S := S16x32) lin0_hz]
  funext j
  obtain ⟨p, q, rfl⟩ : ∃ (p : Fin 10000) (q : Fin 32), j = ix2 p q := ⟨j 0, j 1, eq_ix2 j⟩
  have hl : (cfg0.win 2).xinj (grid0.coords t) (ix2 p q) = ix2 p q := by
    funext a; apply Fin.ext
    match a with
    | ⟨0, _⟩ => rfl
    | ⟨1, _⟩ => rfl
  refine (congrArg (k0_pay1 (F := Ideal) (iblk0 V c 0 t) (iblk0 V c 1 t)) hl).trans ?_
  refine (lin0_tile_apply (iblk0 V c 0 t) (iblk0 V c 1 t) p q).trans ?_
  refine Eq.trans ?_ (congrArg (Cert.Layer.lin1 (F := Ideal) (V c main_v29) (V c main_arg4)) (lin0_out_emb t p q)).symm
  refine Eq.trans ?_ (lin0_whole_apply (V c main_v29) (V c main_arg4) (lin0_row t p) q).symm
  exact Finset.sum_congr rfl fun k _ => congrArg₂ (· * ·) (lin0_left_apply V c t p k) (lin0_right_apply V c t k q)

/-! ## The ten tiles cover the result -/

/-- An index of the result is in point t's tile iff each coordinate is in the tile's range on its axis. -/
theorem lin0_mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v30).slice (win0_2.rect t)).set ↔ _
  rw [View.set_slice_whole, Rect.mem_set_unit]
  exact Iff.rfl

/-- Row r of the result is in tile r / 10000. -/
theorem lin0_cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  have ht : (i 0).val / 10000 < cfg0.N := by rw [hN]; omega
  refine ⟨⟨(i 0).val / 10000, ht⟩, flush0_2 _, ?_⟩
  rw [lin0_mem_blk]
  obtain ⟨-, -, -, -, e4, e5⟩ := lin0_idx ⟨(i 0).val / 10000, ht⟩
  have e4' : win0_2.index ⟨(i 0).val / 10000, ht⟩ (0 : Fin 2) = (i 0).val / 10000 := e4
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 32 ≤ (i 1).val
      ∧ (i 1).val < win0_2.index ⟨(i 0).val / 10000, ht⟩ (1 : Fin 2) * 32 + 32
    omega

/-! ## The region's result -/

/-- After the region, its result array is the dense product of the two arrays it was given. -/
theorem lin_region0 (V : (c : Dev nD) → (b : Ref sig .tc) → Buf (Elt Ideal) ((c : Thread nD τ).loc b)) (c : Dev nD) :
    (dat0 (F := Ideal) V c).arrAt 2 cfg0.N = Cert.Layer.lin1 (F := Ideal) (V c main_v29) (V c main_arg4) :=
  (dat0 (F := Ideal) V c).arrAt_eq_of_cover 2 _ (fun t _ => lin0_flushed V c t) lin0_cover

end Cert.KernelIdeal.Regions

end
-- ==== Proof.LinRegion2.lean ====
/-
  The second dense product, tile by tile. The region walks the 100000 rows of its left array in ten tiles of
  10000 rows; at tile t it multiplies rows 10000·t … 10000·t + 9999 by the whole weight matrix and writes the
  product back as the same rows of the result. Entry (p, q) of a tile's product reads only row p of the tile,
  which is row 10000·t + p of the whole matrix, so the ten written tiles together are the product of the whole
  matrices.
-/
import proofs.«137348_j2937757630534_1_alg».proof.Proof.Gen.KernelIdeal.Frame
import proofs.«137348_j2937757630534_1_alg».proof.Proof.LayerSpec
import proofs.«137348_j2937757630534_1_alg».proof.Proof.LibPlainDot
import proofs.«137348_j2937757630534_1_alg».proof.Proof.LibHostDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two products at an entry -/

/-- A tile's product at entry (p, q): the sum over k of the tile's (p, k) times the weight's (k, q). -/
theorem lin2_tile_apply (x0 : Vec Ideal S10000x32 .f32) (x1 : Vec Ideal S32x64 .f32) (p : Fin 10000) (q : Fin 64) :
    k2_pay1 (F := Ideal) x0 x1 (ix2 p q) = ∑ k : Fin 32, x0 (ix2 p k) * x1 (ix2 k q) := by
  unfold k2_pay1
  rw [shapeCast_self]
  exact Cert.PlainDot.matmul_zero_plain_apply none x0 x1 p q

/-- The whole product at entry (g, q): the sum over k of the left array's (g, k) times the weight's (k, q). -/
theorem lin2_whole_apply (h : (⟨S100000x32, .f32⟩ : BufTy).Contents (Elt Ideal)) (w : (⟨S32x64, .f32⟩ : BufTy).Contents (Elt Ideal))
    (g : Fin 100000) (q : Fin 64) :
    Cert.Layer.lin2 (F := Ideal) h w (ix2 g q) = ∑ k : Fin 32, h (ix2 g k) * w (ix2 k q) := by
  unfold Cert.Layer.lin2
  exact Cert.HostDot.dotGeneral_plain_apply none h w g q

/-! ## Where a tile sits -/

theorem lin2_hz : (![0, 0] : Fin 2 → Nat) = fun _ => 0 := funext fun a => by fin_cases a <;> rfl

/-- The index maps over the ten points: the left array's tile and the result's tile go down the rows with the
    point, the weight's block is the whole weight at every point. -/
theorem lin2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of tile t is row 10000·t + p of the whole array. -/
def lin2_row (t : Fin cfg2.N) (p : Fin 10000) : Fin 100000 :=
  ⟨10000 * t.val + p.val, by have ht : t.val < 10 := t.isLt.trans_eq N_2; have hp := p.isLt; omega⟩

/-- Entry (p, k) of the left array's tile at point t is entry (10000·t + p, k) of the whole left array. -/
theorem lin2_left_apply (V : (c : Dev nD) → (b : Ref sig .tc) → Buf (Elt Ideal) ((c : Thread nD τ).loc b)) (c : Dev nD)
    (t : Fin cfg2.N) (p : Fin 10000) (k : Fin 32) :
    iblk2 (F := Ideal) V c 0 t (ix2 p k) = V c main_v45 (ix2 (lin2_row t p) k) := by
  show V c main_v45 (((cfg2.win 0).blk t).view.emb (ix2 p k)) = _
  refine congrArg (V c main_v45) ?_
  obtain ⟨e0, e1, -⟩ := lin2_idx t
  funext a; apply Fin.ext
  match a with
  | ⟨0, _⟩ => show win2_0.index t (0 : Fin 2) * 10000 + 1 * p.val = 10000 * t.val + p.val; omega
  | ⟨1, _⟩ => show win2_0.index t (1 : Fin 2) * 32 + 1 * k.val = k.val; omega

/-- The weight's block at every point is the whole weight. -/
theorem lin2_right_apply (V : (c : Dev nD) → (b : Ref sig .tc) → Buf (Elt Ideal) ((c : Thread nD τ).loc b)) (c : Dev nD)
    (t : Fin cfg2.N) (k : Fin 32) (q : Fin 64) :
    iblk2 (F := Ideal) V c 1 t (ix2 k q) = V c main_arg6 (ix2 k q) := by
  show V c main_arg6 (((cfg2.win 1).blk t).view.emb (ix2 k q)) = _
  refine congrArg (V c main_arg6) ?_
  obtain ⟨-, -, e2, e3, -⟩ := lin2_idx t
  funext a; apply Fin.ext
  match a with
  | ⟨0, _⟩ => show win2_1.index t (0 : Fin 2) * 32 + 1 * k.val = k.val; omega
  | ⟨1, _⟩ => show win2_1.index t (1 : Fin 2) * 64 + 1 * q.val = q.val; omega

/-- Entry (p, q) of the result's tile at point t sits at (10000·t + p, q) of the whole result. -/
theorem lin2_out_emb (t : Fin cfg2.N) (p : Fin 10000) (q : Fin 64) :
    ((cfg2.win 2).blk t).view.emb (ix2 p q) = ix2 (lin2_row t p) q := by
  obtain ⟨-, -, -, -, e4, e5⟩ := lin2_idx t
  funext a; apply Fin.ext
  match a with
  | ⟨0, _⟩ => show win2_2.index t (0 : Fin 2) * 10000 + 1 * p.val = 10000 * t.val + p.val; omega
  | ⟨1, _⟩ => show win2_2.index t (1 : Fin 2) * 64 + 1 * q.val = q.val; omega

/-! ## What a point writes back -/

/-- Point t writes back tile t of the product of the whole arrays. -/
theorem lin2_flushed (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (Cert.Layer.lin2 (F := Ideal) (V c main_v45) (V c main_arg6)) := by
  show (cfg2.win 2).cut (grid2.coords t) ((dat2 (F := Ideal) V c).after 2 t) = _
  rw [after2_2]
  unfold out2_2
  rw [View.canon_unit_zero lin2_hz]
  simp only [View.ld_unit_zero (S := S10000x32) lin2_hz, View.ld_unit_zero (S := S32x64) lin2_hz]
  funext j
  obtain ⟨p, q, rfl⟩ : ∃ (p : Fin 10000) (q : Fin 64), j = ix2 p q := ⟨j 0, j 1, eq_ix2 j⟩
  have hl : (cfg2.win 2).xinj (grid2.coords t) (ix2 p q) = ix2 p q := by
    funext a; apply Fin.ext
    match a with
    | ⟨0, _⟩ => rfl
    | ⟨1, _⟩ => rfl
  refine (congrArg (k2_pay1 (F := Ideal) (iblk2 V c 0 t) (iblk2 V c 1 t)) hl).trans ?_
  refine (lin2_tile_apply (iblk2 V c 0 t) (iblk2 V c 1 t) p q).trans ?_
  refine Eq.trans ?_ (congrArg (Cert.Layer.lin2 (F := Ideal) (V c main_v45) (V c main_arg6)) (lin2_out_emb t p q)).symm
  refine Eq.trans ?_ (lin2_whole_apply (V c main_v45) (V c main_arg6) (lin2_row t p) q).symm
  exact Finset.sum_congr rfl fun k _ => congrArg₂ (· * ·) (lin2_left_apply V c t p k) (lin2_right_apply V c t k q)

/-! ## The ten tiles cover the result -/

/-- An index of the result is in point t's tile iff each coordinate is in the tile's range on its axis. -/
theorem lin2_mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v46).slice (win2_2.rect t)).set ↔ _
  rw [View.set_slice_whole, Rect.mem_set_unit]
  exact Iff.rfl

/-- Row r of the result is in tile r / 10000. -/
theorem lin2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have ht : (i 0).val / 10000 < cfg2.N := by rw [hN]; omega
  refine ⟨⟨(i 0).val / 10000, ht⟩, flush2_2 _, ?_⟩
  rw [lin2_mem_blk]
  obtain ⟨-, -, -, -, e4, e5⟩ := lin2_idx ⟨(i 0).val / 10000, ht⟩
  have e4' : win2_2.index ⟨(i 0).val / 10000, ht⟩ (0 : Fin 2) = (i 0).val / 10000 := e4
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    omega

/-! ## The region's result -/

/-- After the region, its result array is the dense product of the two arrays it was given. -/
theorem lin_region2 (V : (c : Dev nD) → (b : Ref sig .tc) → Buf (Elt Ideal) ((c : Thread nD τ).loc b)) (c : Dev nD) :
    (dat2 (F := Ideal) V c).arrAt 2 cfg2.N = Cert.Layer.lin2 (F := Ideal) (V c main_v45) (V c main_arg6) :=
  (dat2 (F := Ideal) V c).arrAt_eq_of_cover 2 _ (fun t _ => lin2_flushed V c t) lin2_cover

end Cert.KernelIdeal.Regions

end
-- ==== Proof.LinRegion4.lean ====
/-
  The third dense product, tile by tile. The region walks the 100000 rows of its left array in ten tiles of
  10000 rows; at tile t it multiplies rows 10000·t … 10000·t + 9999 by the whole weight matrix and writes the
  product back as the same rows of the result. Entry (p, q) of a tile's product reads only row p of the tile,
  which is row 10000·t + p of the whole matrix, so the ten written tiles together are the product of the whole
  matrices.
-/
import proofs.«137348_j2937757630534_1_alg».proof.Proof.Gen.KernelIdeal.Frame
import proofs.«137348_j2937757630534_1_alg».proof.Proof.LayerSpec
import proofs.«137348_j2937757630534_1_alg».proof.Proof.LibPlainDot
import proofs.«137348_j2937757630534_1_alg».proof.Proof.LibHostDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two products at an entry -/

/-- A tile's product at entry (p, q): the sum over k of the tile's (p, k) times the weight's (k, q). -/
theorem lin4_tile_apply (x0 : Vec Ideal S10000x64 .f32) (x1 : Vec Ideal S64x128 .f32) (p : Fin 10000) (q : Fin 128) :
    k4_pay1 (F := Ideal) x0 x1 (ix2 p q) = ∑ k : Fin 64, x0 (ix2 p k) * x1 (ix2 k q) := by
  unfold k4_pay1
  rw [shapeCast_self]
  exact Cert.PlainDot.matmul_zero_plain_apply none x0 x1 p q

/-- The whole product at entry (g, q): the sum over k of the left array's (g, k) times the weight's (k, q). -/
theorem lin4_whole_apply (h : (⟨S100000x64, .f32⟩ : BufTy).Contents (Elt Ideal)) (w : (⟨S64x128, .f32⟩ : BufTy).Contents (Elt Ideal))
    (g : Fin 100000) (q : Fin 128) :
    Cert.Layer.lin3 (F := Ideal) h w (ix2 g q) = ∑ k : Fin 64, h (ix2 g k) * w (ix2 k q) := by
  unfold Cert.Layer.lin3
  exact Cert.HostDot.dotGeneral_plain_apply none h w g q

/-! ## Where a tile sits -/

theorem lin4_hz : (![0, 0] : Fin 2 → Nat) = fun _ => 0 := funext fun a => by fin_cases a <;> rfl

/-- The index maps over the ten points: the left array's tile and the result's tile go down the rows with the
    point, the weight's block is the whole weight at every point. -/
theorem lin4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of tile t is row 10000·t + p of the whole array. -/
def lin4_row (t : Fin cfg4.N) (p : Fin 10000) : Fin 100000 :=
  ⟨10000 * t.val + p.val, by have ht : t.val < 10 := t.isLt.trans_eq N_4; have hp := p.isLt; omega⟩

/-- Entry (p, k) of the left array's tile at point t is entry (10000·t + p, k) of the whole left array. -/
theorem lin4_left_apply (V : (c : Dev nD) → (b : Ref sig .tc) → Buf (Elt Ideal) ((c : Thread nD τ).loc b)) (c : Dev nD)
    (t : Fin cfg4.N) (p : Fin 10000) (k : Fin 64) :
    iblk4 (F := Ideal) V c 0 t (ix2 p k) = V c main_v61 (ix2 (lin4_row t p) k) := by
  show V c main_v61 (((cfg4.win 0).blk t).view.emb (ix2 p k)) = _
  refine congrArg (V c main_v61) ?_
  obtain ⟨e0, e1, -⟩ := lin4_idx t
  funext a; apply Fin.ext
  match a with
  | ⟨0, _⟩ => show win4_0.index t (0 : Fin 2) * 10000 + 1 * p.val = 10000 * t.val + p.val; omega
  | ⟨1, _⟩ => show win4_0.index t (1 : Fin 2) * 64 + 1 * k.val = k.val; omega

/-- The weight's block at every point is the whole weight. -/
theorem lin4_right_apply (V : (c : Dev nD) → (b : Ref sig .tc) → Buf (Elt Ideal) ((c : Thread nD τ).loc b)) (c : Dev nD)
    (t : Fin cfg4.N) (k : Fin 64) (q : Fin 128) :
    iblk4 (F := Ideal) V c 1 t (ix2 k q) = V c main_arg8 (ix2 k q) := by
  show V c main_arg8 (((cfg4.win 1).blk t).view.emb (ix2 k q)) = _
  refine congrArg (V c main_arg8) ?_
  obtain ⟨-, -, e2, e3, -⟩ := lin4_idx t
  funext a; apply Fin.ext
  match a with
  | ⟨0, _⟩ => show win4_1.index t (0 : Fin 2) * 64 + 1 * k.val = k.val; omega
  | ⟨1, _⟩ => show win4_1.index t (1 : Fin 2) * 128 + 1 * q.val = q.val; omega

/-- Entry (p, q) of the result's tile at point t sits at (10000·t + p, q) of the whole result. -/
theorem lin4_out_emb (t : Fin cfg4.N) (p : Fin 10000) (q : Fin 128) :
    ((cfg4.win 2).blk t).view.emb (ix2 p q) = ix2 (lin4_row t p) q := by
  obtain ⟨-, -, -, -, e4, e5⟩ := lin4_idx t
  funext a; apply Fin.ext
  match a with
  | ⟨0, _⟩ => show win4_2.index t (0 : Fin 2) * 10000 + 1 * p.val = 10000 * t.val + p.val; omega
  | ⟨1, _⟩ => show win4_2.index t (1 : Fin 2) * 128 + 1 * q.val = q.val; omega

/-! ## What a point writes back -/

/-- Point t writes back tile t of the product of the whole arrays. -/
theorem lin4_flushed (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (Cert.Layer.lin3 (F := Ideal) (V c main_v61) (V c main_arg8)) := by
  show (cfg4.win 2).cut (grid4.coords t) ((dat4 (F := Ideal) V c).after 2 t) = _
  rw [after4_2]
  unfold out4_2
  rw [View.canon_unit_zero lin4_hz]
  simp only [View.ld_unit_zero (S := S10000x64) lin4_hz, View.ld_unit_zero (S := S64x128) lin4_hz]
  funext j
  obtain ⟨p, q, rfl⟩ : ∃ (p : Fin 10000) (q : Fin 128), j = ix2 p q := ⟨j 0, j 1, eq_ix2 j⟩
  have hl : (cfg4.win 2).xinj (grid4.coords t) (ix2 p q) = ix2 p q := by
    funext a; apply Fin.ext
    match a with
    | ⟨0, _⟩ => rfl
    | ⟨1, _⟩ => rfl
  refine (congrArg (k4_pay1 (F := Ideal) (iblk4 V c 0 t) (iblk4 V c 1 t)) hl).trans ?_
  refine (lin4_tile_apply (iblk4 V c 0 t) (iblk4 V c 1 t) p q).trans ?_
  refine Eq.trans ?_ (congrArg (Cert.Layer.lin3 (F := Ideal) (V c main_v61) (V c main_arg8)) (lin4_out_emb t p q)).symm
  refine Eq.trans ?_ (lin4_whole_apply (V c main_v61) (V c main_arg8) (lin4_row t p) q).symm
  exact Finset.sum_congr rfl fun k _ => congrArg₂ (· * ·) (lin4_left_apply V c t p k) (lin4_right_apply V c t k q)

/-! ## The ten tiles cover the result -/

/-- An index of the result is in point t's tile iff each coordinate is in the tile's range on its axis. -/
theorem lin4_mem_blk (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v62).slice (win4_2.rect t)).set ↔ _
  rw [View.set_slice_whole, Rect.mem_set_unit]
  exact Iff.rfl

/-- Row r of the result is in tile r / 10000. -/
theorem lin4_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 10 := N_4
  have ht : (i 0).val / 10000 < cfg4.N := by rw [hN]; omega
  refine ⟨⟨(i 0).val / 10000, ht⟩, flush4_2 _, ?_⟩
  rw [lin4_mem_blk]
  obtain ⟨-, -, -, -, e4, e5⟩ := lin4_idx ⟨(i 0).val / 10000, ht⟩
  have e4' : win4_2.index ⟨(i 0).val / 10000, ht⟩ (0 : Fin 2) = (i 0).val / 10000 := e4
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    omega
  | ⟨1, _⟩ =>
    show win4_2.index ⟨(i 0).val / 10000, ht⟩ (1 : Fin 2) * 128 ≤ (i 1).val
      ∧ (i 1).val < win4_2.index ⟨(i 0).val / 10000, ht⟩ (1 : Fin 2) * 128 + 128
    omega

/-! ## The region's result -/

/-- After the region, its result array is the dense product of the two arrays it was given. -/
theorem lin_region4 (V : (c : Dev nD) → (b : Ref sig .tc) → Buf (Elt Ideal) ((c : Thread nD τ).loc b)) (c : Dev nD) :
    (dat4 (F := Ideal) V c).arrAt 2 cfg4.N = Cert.Layer.lin3 (F := Ideal) (V c main_v61) (V c main_arg8) :=
  (dat4 (F := Ideal) V c).arrAt_eq_of_cover 2 _ (fun t _ => lin4_flushed V c t) lin4_cover

end Cert.KernelIdeal.Regions

end
-- ==== Proof.LinRegion6.lean ====
/-
  The fourth dense product, tile by tile. The region walks the 100000 rows of its left array in ten tiles of
  10000 rows; at tile t it multiplies rows 10000·t … 10000·t + 9999 by the whole weight matrix and writes the
  product back as the same rows of the result. Entry (p, q) of a tile's product reads only row p of the tile,
  which is row 10000·t + p of the whole matrix, so the ten written tiles together are the product of the whole
  matrices.
-/
import proofs.«137348_j2937757630534_1_alg».proof.Proof.Gen.KernelIdeal.Frame
import proofs.«137348_j2937757630534_1_alg».proof.Proof.LayerSpec
import proofs.«137348_j2937757630534_1_alg».proof.Proof.LibPlainDot
import proofs.«137348_j2937757630534_1_alg».proof.Proof.LibHostDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two products at an entry -/

/-- A tile's product at entry (p, q): the sum over k of the tile's (p, k) times the weight's (k, q). -/
theorem lin6_tile_apply (x0 : Vec Ideal S10000x128 .f32) (x1 : Vec Ideal S128x10 .f32) (p : Fin 10000) (q : Fin 10) :
    k6_pay1 (F := Ideal) x0 x1 (ix2 p q) = ∑ k : Fin 128, x0 (ix2 p k) * x1 (ix2 k q) := by
  unfold k6_pay1
  rw [shapeCast_self]
  exact Cert.PlainDot.matmul_zero_plain_apply none x0 x1 p q

/-- The whole product at entry (g, q): the sum over k of the left array's (g, k) times the weight's (k, q). -/
theorem lin6_whole_apply (h : (⟨S100000x128, .f32⟩ : BufTy).Contents (Elt Ideal)) (w : (⟨S128x10, .f32⟩ : BufTy).Contents (Elt Ideal))
    (g : Fin 100000) (q : Fin 10) :
    Cert.Layer.lin4 (F := Ideal) h w (ix2 g q) = ∑ k : Fin 128, h (ix2 g k) * w (ix2 k q) := by
  unfold Cert.Layer.lin4
  exact Cert.HostDot.dotGeneral_plain_apply none h w g q

/-! ## Where a tile sits -/

theorem lin6_hz : (![0, 0] : Fin 2 → Nat) = fun _ => 0 := funext fun a => by fin_cases a <;> rfl

/-- The index maps over the ten points: the left array's tile and the result's tile go down the rows with the
    point, the weight's block is the whole weight at every point. -/
theorem lin6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row p of tile t is row 10000·t + p of the whole array. -/
def lin6_row (t : Fin cfg6.N) (p : Fin 10000) : Fin 100000 :=
  ⟨10000 * t.val + p.val, by have ht : t.val < 10 := t.isLt.trans_eq N_6; have hp := p.isLt; omega⟩

/-- Entry (p, k) of the left array's tile at point t is entry (10000·t + p, k) of the whole left array. -/
theorem lin6_left_apply (V : (c : Dev nD) → (b : Ref sig .tc) → Buf (Elt Ideal) ((c : Thread nD τ).loc b)) (c : Dev nD)
    (t : Fin cfg6.N) (p : Fin 10000) (k : Fin 128) :
    iblk6 (F := Ideal) V c 0 t (ix2 p k) = V c main_v77 (ix2 (lin6_row t p) k) := by
  show V c main_v77 (((cfg6.win 0).blk t).view.emb (ix2 p k)) = _
  refine congrArg (V c main_v77) ?_
  obtain ⟨e0, e1, -⟩ := lin6_idx t
  funext a; apply Fin.ext
  match a with
  | ⟨0, _⟩ => show win6_0.index t (0 : Fin 2) * 10000 + 1 * p.val = 10000 * t.val + p.val; omega
  | ⟨1, _⟩ => show win6_0.index t (1 : Fin 2) * 128 + 1 * k.val = k.val; omega

/-- The weight's block at every point is the whole weight. -/
theorem lin6_right_apply (V : (c : Dev nD) → (b : Ref sig .tc) → Buf (Elt Ideal) ((c : Thread nD τ).loc b)) (c : Dev nD)
    (t : Fin cfg6.N) (k : Fin 128) (q : Fin 10) :
    iblk6 (F := Ideal) V c 1 t (ix2 k q) = V c main_arg10 (ix2 k q) := by
  show V c main_arg10 (((cfg6.win 1).blk t).view.emb (ix2 k q)) = _
  refine congrArg (V c main_arg10) ?_
  obtain ⟨-, -, e2, e3, -⟩ := lin6_idx t
  funext a; apply Fin.ext
  match a with
  | ⟨0, _⟩ => show win6_1.index t (0 : Fin 2) * 128 + 1 * k.val = k.val; omega
  | ⟨1, _⟩ => show win6_1.index t (1 : Fin 2) * 10 + 1 * q.val = q.val; omega

/-- Entry (p, q) of the result's tile at point t sits at (10000·t + p, q) of the whole result. -/
theorem lin6_out_emb (t : Fin cfg6.N) (p : Fin 10000) (q : Fin 10) :
    ((cfg6.win 2).blk t).view.emb (ix2 p q) = ix2 (lin6_row t p) q := by
  obtain ⟨-, -, -, -, e4, e5⟩ := lin6_idx t
  funext a; apply Fin.ext
  match a with
  | ⟨0, _⟩ => show win6_2.index t (0 : Fin 2) * 10000 + 1 * p.val = 10000 * t.val + p.val; omega
  | ⟨1, _⟩ => show win6_2.index t (1 : Fin 2) * 10 + 1 * q.val = q.val; omega

/-! ## What a point writes back -/

/-- Point t writes back tile t of the product of the whole arrays. -/
theorem lin6_flushed (V : (c : Dev nD) → (b : Ref sig .tc) → Buf (Elt Ideal) ((c : Thread nD τ).loc b)) (c : Dev nD)
    (t : Fin cfg6.N) :
    (dat6 (F := Ideal) V c).flushed 2 t
      = ((cfg6.win 2).blk t).view.read (Elt Ideal) (Cert.Layer.lin4 (F := Ideal) (V c main_v77) (V c main_arg10)) := by
  show (cfg6.win 2).cut (grid6.coords t) ((dat6 (F := Ideal) V c).after 2 t) = _
  rw [after6_2]
  unfold out6_2
  rw [View.canon_unit_zero lin6_hz]
  simp only [View.ld_unit_zero (S := S10000x128) lin6_hz, View.ld_unit_zero (S := S128x10) lin6_hz]
  funext j
  obtain ⟨p, q, rfl⟩ : ∃ (p : Fin 10000) (q : Fin 10), j = ix2 p q := ⟨j 0, j 1, eq_ix2 j⟩
  have hl : (cfg6.win 2).xinj (grid6.coords t) (ix2 p q) = ix2 p q := by
    funext a; apply Fin.ext
    match a with
    | ⟨0, _⟩ => rfl
    | ⟨1, _⟩ => rfl
  refine (congrArg (k6_pay1 (F := Ideal) (iblk6 V c 0 t) (iblk6 V c 1 t)) hl).trans ?_
  refine (lin6_tile_apply (iblk6 V c 0 t) (iblk6 V c 1 t) p q).trans ?_
  refine Eq.trans ?_ (congrArg (Cert.Layer.lin4 (F := Ideal) (V c main_v77) (V c main_arg10)) (lin6_out_emb t p q)).symm
  refine Eq.trans ?_ (lin6_whole_apply (V c main_v77) (V c main_arg10) (lin6_row t p) q).symm
  exact Finset.sum_congr rfl fun k _ => congrArg₂ (· * ·) (lin6_left_apply V c t p k) (lin6_right_apply V c t k q)

/-! ## The ten tiles cover the result -/

/-- An index of the result is in point t's tile iff each coordinate is in the tile's range on its axis. -/
theorem lin6_mem_blk (t : Fin cfg6.N) (i : S100000x10.Idx) :
    i ∈ ((cfg6.win 2).blk t).view.set ↔ ∀ a : Fin 2, win6_2.index t a * S10000x10.size a ≤ (i a).val
      ∧ (i a).val < win6_2.index t a * S10000x10.size a + S10000x10.size a := by
  show i ∈ ((View.whole main_v78).slice (win6_2.rect t)).set ↔ _
  rw [View.set_slice_whole, Rect.mem_set_unit]
  exact Iff.rfl

/-- Row r of the result is in tile r / 10000. -/
theorem lin6_cover (i : S100000x10.Idx) :
    ∃ t : Fin cfg6.N, (cfg6.win 2).flush t = true ∧ i ∈ ((cfg6.win 2).blk t).view.set := by
  have hi0 : (i 0).val < 100000 := (i 0).isLt
  have hi1 : (i 1).val < 10 := (i 1).isLt
  have hN : cfg6.N = 10 := N_6
  have ht : (i 0).val / 10000 < cfg6.N := by rw [hN]; omega
  refine ⟨⟨(i 0).val / 10000, ht⟩, flush6_2 _, ?_⟩
  rw [lin6_mem_blk]
  obtain ⟨-, -, -, -, e4, e5⟩ := lin6_idx ⟨(i 0).val / 10000, ht⟩
  have e4' : win6_2.index ⟨(i 0).val / 10000, ht⟩ (0 : Fin 2) = (i 0).val / 10000 := e4
  intro a
  match a with
  | ⟨0, _⟩ =>
    show win6_2.index ⟨(i 0).val / 10000, ht⟩ (0 : Fin 2) * 10000 ≤ (i 0).val
      ∧ (i 0).val < win6_2.index ⟨(i 0).val / 10000, ht⟩ (0 : Fin 2) * 10000 + 10000
    omega
  | ⟨1, _⟩ =>
    show win6_2.index ⟨(i 0).val / 10000, ht⟩ (1 : Fin 2) * 10 ≤ (i 1).val
      ∧ (i 1).val < win6_2.index ⟨(i 0).val / 10000, ht⟩ (1 : Fin 2) * 10 + 10
    omega

/-! ## The region's result -/

/-- After the region, its result array is the dense product of the two arrays it was given. -/
theorem lin_region6 (V : (c : Dev nD) → (b : Ref sig .tc) → Buf (Elt Ideal) ((c : Thread nD τ).loc b)) (c : Dev nD) :
    (dat6 (F := Ideal) V c).arrAt 2 cfg6.N = Cert.Layer.lin4 (F := Ideal) (V c main_v77) (V c main_arg10) :=
  (dat6 (F := Ideal) V c).arrAt_eq_of_cover 2 _ (fun t _ => lin6_flushed V c t) lin6_cover

end Cert.KernelIdeal.Regions

end
-- ==== Proof.LibTileCombine.lean ====
/-
  One tile of a combine, and the whole combine, read at an entry, at the ideal values.

  A combine adds to a matrix agg : [a, n] the rows of a matrix y : [a, n] scaled by a column d : [a, 1], then a row
  b : [1, n] repeated down the rows, and (except in the last layer) takes the maximum with zero. A kernel spells
  the column and the row with `vector.broadcast` along their unit axes; the host spells them with two
  `broadcast_in_dim` each, from a vector d : [a] and a vector b : [n]. Either way entry (p, q) is
  (agg (p, q) + d p · y (p, q)) + b q, or its maximum with the value of the zero word.
-/
import Idealize.ShloMosaic.Lib.ValueIdx
import Idealize.ShloMosaic.Lib.Pipeline.Value
import Idealize.ShloMosaic.PureOps.Ideal.Laws

noncomputable section

namespace Cert.TileCombine

open Idealize.ShloMosaic Idealize.ShloMosaic.ValueIdx

/-- A column [a, 1] broadcast along its unit axis to [a, n]: entry (p, q) is the column's entry at row p. -/
theorem broadcastTo_col_apply {α : Type} {a n : ℕ} (v : (⟨2, ![a, 1]⟩ : Shape).Idx → α)
    (h : (⟨2, ![a, 1]⟩ : Shape).Broadcasts ⟨2, ![a, n]⟩) (p : Fin a) (q : Fin n) :
    broadcastTo ⟨2, ![a, n]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A row [1, n] broadcast along its unit axis to [a, n]: entry (p, q) is the row's entry at column q. -/
theorem broadcastTo_row_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- A vector [a] stood up as a column [a, 1] and repeated along the rows to [a, n]: entry (p, q) is the
    vector's entry p. -/
theorem bcast_vec_col_apply {α : Type} {a n : ℕ} (d : (⟨1, ![a]⟩ : Shape).Idx → α)
    (h1 : (⟨2, ![a, 1]⟩ : Shape).BroadcastsInDim ⟨2, ![a, n]⟩ ![0, 1])
    (h2 : (⟨1, ![a]⟩ : Shape).BroadcastsInDim ⟨2, ![a, 1]⟩ ![0]) (p : Fin a) (q : Fin n) :
    broadcastInDim ⟨2, ![a, n]⟩ ![0, 1] h1 (broadcastInDim ⟨2, ![a, 1]⟩ ![0] h2 d) (ix2 p q) = d (ix1 p) := by
  refine (broadcastInDim_apply _ h1 _ (ix2 p q) (ix2 p (0 : Fin 1)) fun ax => ?_).trans
    (broadcastInDim_apply _ h2 d (ix2 p (0 : Fin 1)) (ix1 p) fun ax => ?_)
  · match ax with
    | ⟨0, _⟩ =>
      show p.val = if a = 1 then 0 else p.val
      split
      · have := p.isLt; omega
      · rfl
    | ⟨1, _⟩ => rfl
  · match ax with
    | ⟨0, _⟩ =>
      show p.val = if a = 1 then 0 else p.val
      split
      · have := p.isLt; omega
      · rfl

/-- A vector [n] laid as a row [1, n] and repeated down the rows to [a, n]: entry (p, q) is the vector's
    entry q. -/
theorem bcast_vec_row_apply {α : Type} {a n : ℕ} (b : (⟨1, ![n]⟩ : Shape).Idx → α)
    (h3 : (⟨2, ![1, n]⟩ : Shape).BroadcastsInDim ⟨2, ![a, n]⟩ ![0, 1])
    (h4 : (⟨1, ![n]⟩ : Shape).BroadcastsInDim ⟨2, ![1, n]⟩ ![1]) (p : Fin a) (q : Fin n) :
    broadcastInDim ⟨2, ![a, n]⟩ ![0, 1] h3 (broadcastInDim ⟨2, ![1, n]⟩ ![1] h4 b) (ix2 p q) = b (ix1 q) := by
  refine (broadcastInDim_apply _ h3 _ (ix2 p q) (ix2 (0 : Fin 1) q) fun ax => ?_).trans
    (broadcastInDim_apply _ h4 b (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- ONE TILE without the maximum, as a kernel spells it: entry (p, q) is (x0 (p, q) + x2 (p, 0) · x1 (p, q)) + x3 (0, q). -/
theorem tile_affine_apply {a n : ℕ} (x0 x1 : FVec Ideal ⟨2, ![a, n]⟩ .f32) (x2 : FVec Ideal ⟨2, ![a, 1]⟩ .f32)
    (x3 : FVec Ideal ⟨2, ![1, n]⟩ .f32)
    (c0 c1 : (⟨2, ![a, n]⟩ : Shape).ShapeCasts ⟨2, ![a, n]⟩) (c2 : (⟨2, ![a, 1]⟩ : Shape).ShapeCasts ⟨2, ![a, 1]⟩)
    (c3 : (⟨2, ![1, n]⟩ : Shape).ShapeCasts ⟨2, ![1, n]⟩)
    (b2 : (⟨2, ![a, 1]⟩ : Shape).Broadcasts ⟨2, ![a, n]⟩) (b3 : (⟨2, ![1, n]⟩ : Shape).Broadcasts ⟨2, ![a, n]⟩)
    (p : Fin a) (q : Fin n) :
    addf (addf (shapeCast ⟨2, ![a, n]⟩ x0 c0)
          (mulf (broadcastTo ⟨2, ![a, n]⟩ (shapeCast ⟨2, ![a, 1]⟩ x2 c2) b2) (shapeCast ⟨2, ![a, n]⟩ x1 c1)))
        (broadcastTo ⟨2, ![a, n]⟩ (shapeCast ⟨2, ![1, n]⟩ x3 c3) b3) (ix2 p q)
      = (x0 (ix2 p q) + x2 (ix2 p (0 : Fin 1)) * x1 (ix2 p q)) + x3 (ix2 (0 : Fin 1) q) := by
  rw [shapeCast_self x0 c0, shapeCast_self x1 c1, shapeCast_self x2 c2, shapeCast_self x3 c3,
    addf_apply, addf_apply, mulf_apply, broadcastTo_col_apply, broadcastTo_row_apply]

/-- ONE TILE with the maximum: the maximum of that entry and the value of the word `z`. -/
theorem tile_relu_apply {a n : ℕ} (x0 x1 : FVec Ideal ⟨2, ![a, n]⟩ .f32) (x2 : FVec Ideal ⟨2, ![a, 1]⟩ .f32)
    (x3 : FVec Ideal ⟨2, ![1, n]⟩ .f32)
    (c0 c1 : (⟨2, ![a, n]⟩ : Shape).ShapeCasts ⟨2, ![a, n]⟩) (c2 : (⟨2, ![a, 1]⟩ : Shape).ShapeCasts ⟨2, ![a, 1]⟩)
    (c3 : (⟨2, ![1, n]⟩ : Shape).ShapeCasts ⟨2, ![1, n]⟩)
    (b2 : (⟨2, ![a, 1]⟩ : Shape).Broadcasts ⟨2, ![a, n]⟩) (b3 : (⟨2, ![1, n]⟩ : Shape).Broadcasts ⟨2, ![a, n]⟩)
    (z : BitVec 32) (p : Fin a) (q : Fin n) :
    maximumf (addf (addf (shapeCast ⟨2, ![a, n]⟩ x0 c0)
          (mulf (broadcastTo ⟨2, ![a, n]⟩ (shapeCast ⟨2, ![a, 1]⟩ x2 c2) b2) (shapeCast ⟨2, ![a, n]⟩ x1 c1)))
        (broadcastTo ⟨2, ![a, n]⟩ (shapeCast ⟨2, ![1, n]⟩ x3 c3) b3))
      (broadcast ⟨2, ![a, n]⟩ (Scalar.ofBits (F := Ideal) .f32 z)) (ix2 p q)
      = max ((x0 (ix2 p q) + x2 (ix2 p (0 : Fin 1)) * x1 (ix2 p q)) + x3 (ix2 (0 : Fin 1) q)) (Ideal.ofBits .f32 z) := by
  rw [maximumf_apply, tile_affine_apply, broadcast_apply]
  rfl

/-- THE WHOLE COMBINE without the maximum, as the host spells it: entry (p, q) is (agg (p, q) + d p · y (p, q)) + b q. -/
theorem host_affine_apply {a n : ℕ} (agg y : FVec Ideal ⟨2, ![a, n]⟩ .f32) (d : FVec Ideal ⟨1, ![a]⟩ .f32)
    (b : FVec Ideal ⟨1, ![n]⟩ .f32)
    (h1 : (⟨2, ![a, 1]⟩ : Shape).BroadcastsInDim ⟨2, ![a, n]⟩ ![0, 1])
    (h2 : (⟨1, ![a]⟩ : Shape).BroadcastsInDim ⟨2, ![a, 1]⟩ ![0])
    (h3 : (⟨2, ![1, n]⟩ : Shape).BroadcastsInDim ⟨2, ![a, n]⟩ ![0, 1])
    (h4 : (⟨1, ![n]⟩ : Shape).BroadcastsInDim ⟨2, ![1, n]⟩ ![1]) (p : Fin a) (q : Fin n) :
    addf (addf agg (mulf (broadcastInDim ⟨2, ![a, n]⟩ ![0, 1] h1 (broadcastInDim ⟨2, ![a, 1]⟩ ![0] h2 d)) y))
        (broadcastInDim ⟨2, ![a, n]⟩ ![0, 1] h3 (broadcastInDim ⟨2, ![1, n]⟩ ![1] h4 b)) (ix2 p q)
      = (agg (ix2 p q) + d (ix1 p) * y (ix2 p q)) + b (ix1 q) := by
  rw [addf_apply, addf_apply, mulf_apply, bcast_vec_col_apply, bcast_vec_row_apply]

/-- THE WHOLE COMBINE with the maximum: the maximum of that entry and the value of the word `z`. -/
theorem host_relu_apply {a n : ℕ} (agg y : FVec Ideal ⟨2, ![a, n]⟩ .f32) (d : FVec Ideal ⟨1, ![a]⟩ .f32)
    (b : FVec Ideal ⟨1, ![n]⟩ .f32)
    (h1 : (⟨2, ![a, 1]⟩ : Shape).BroadcastsInDim ⟨2, ![a, n]⟩ ![0, 1])
    (h2 : (⟨1, ![a]⟩ : Shape).BroadcastsInDim ⟨2, ![a, 1]⟩ ![0])
    (h3 : (⟨2, ![1, n]⟩ : Shape).BroadcastsInDim ⟨2, ![a, n]⟩ ![0, 1])
    (h4 : (⟨1, ![n]⟩ : Shape).BroadcastsInDim ⟨2, ![1, n]⟩ ![1])
    (h5 : (⟨0, ![]⟩ : Shape).BroadcastsInDim ⟨2, ![a, n]⟩ ![]) (z : BitVec 32) (p : Fin a) (q : Fin n) :
    maximumf (addf (addf agg (mulf (broadcastInDim ⟨2, ![a, n]⟩ ![0, 1] h1 (broadcastInDim ⟨2, ![a, 1]⟩ ![0] h2 d)) y))
        (broadcastInDim ⟨2, ![a, n]⟩ ![0, 1] h3 (broadcastInDim ⟨2, ![1, n]⟩ ![1] h4 b)))
      (broadcastInDim ⟨2, ![a, n]⟩ ![] h5 (constant (F := Ideal) ⟨0, ![]⟩ .f32 z)) (ix2 p q)
      = max ((agg (ix2 p q) + d (ix1 p) * y (ix2 p q)) + b (ix1 q)) (Ideal.ofBits .f32 z) := by
  rw [maximumf_apply, host_affine_apply]
  rfl

end Cert.TileCombine

end
-- ==== Proof.CombRegion1.lean ====
/-
  The first combine, tile by tile. The region walks the 100000 rows in ten tiles of 10000 rows; at tile t it
  reads the same rows of the aggregated messages, of the dense product and of the column of squared
  inverse-root degrees, and the one bias row, and writes max ((agg + d · y) + b, 0) back as the same rows of
  the result: a pointwise function of the arrays, so the ten written tiles together are that function of the
  whole arrays.
-/
import proofs.«137348_j2937757630534_1_alg».proof.Proof.Gen.KernelIdeal.Frame
import proofs.«137348_j2937757630534_1_alg».proof.Proof.LayerSpec
import proofs.«137348_j2937757630534_1_alg».proof.Proof.LibTileCombine
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The tile's payload and the layer's combine, read at an entry -/

/-- The zero offsets of a whole-buffer load or store, however they are spelt. -/
theorem hz1 : (![0, 0] : Fin 2 → Nat) = fun _ => 0 := funext fun a => by fin_cases a <;> rfl

/-- Entry (p, q) of what the body computes from its four tiles. -/
theorem pay1_apply (x0 x1 : Vec Ideal S10000x32 .f32) (x2 : Vec Ideal S10000x1 .f32) (x3 : Vec Ideal S1x32 .f32)
    (p : Fin 10000) (q : Fin 32) :
    k1_pay1 (F := Ideal) x0 x2 x1 x3 (ix2 p q)
      = max ((x0 (ix2 p q) + x2 (ix2 p (0 : Fin 1)) * x1 (ix2 p q)) + x3 (ix2 (0 : Fin 1) q)) (Ideal.ofBits .f32 0x00000000#32) :=
  Cert.TileCombine.tile_relu_apply x0 x1 x2 x3 _ _ _ _ _ _ _ p q

/-- Entry (g, q) of the layer's combine of whole arrays. -/
theorem comb1_apply (agg y : (⟨S100000x32, .f32⟩ : BufTy).Contents (Elt Ideal)) (d : (⟨S100000, .f32⟩ : BufTy).Contents (Elt Ideal))
    (b : (⟨S32, .f32⟩ : BufTy).Contents (Elt Ideal)) (g : Fin 100000) (q : Fin 32) :
    Cert.Layer.comb1 (F := Ideal) agg y d b (ix2 g q)
      = max ((agg (ix2 g q) + d (ix1 g) * y (ix2 g q)) + b (ix1 q)) (Ideal.ofBits .f32 0x00000000#32) :=
  Cert.TileCombine.host_relu_apply agg y d b _ _ _ _ _ _ g q

/-! ## The windows' blocks: tile t holds rows 10000·t … 10000·t + 9999 -/

/-- The printed index maps, decided over the ten grid points: the three row-tiled inputs and the output are at
    block (t, 0), the bias row at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point is one of ten. -/
theorem t_lt1 (t : Fin cfg1.N) : t.val < 10 := lt_of_lt_of_eq t.isLt N_1

section Blocks
variable (V : (c : Dev nD) → (b : Ref sig .tc) → Buf (Elt Ideal) ((c : Thread nD τ).loc b)) (c : Dev nD)

/-- Entry (p, q) of tile t of the aggregated messages is entry (10000·t + p, q) of the array. -/
theorem blk1_0_apply (t : Fin cfg1.N) (p : Fin 10000) (q : Fin 32) (hg : t.val * 10000 + p.val < 100000) :
    (iblk1 (F := Ideal) V c 0 t : S10000x32.Idx → EReal) (ix2 p q)
      = (V c main_v43 : S100000x32.Idx → EReal) (ix2 (⟨t.val * 10000 + p.val, hg⟩ : Fin 100000) q) := by
  obtain ⟨e0, e1, -⟩ := idx_facts1 t
  unfold iblk1
  show (V c main_v43 : S100000x32.Idx → EReal) (((cfg1.win 0).blk t).view.emb (ix2 p q)) = _
  refine congrArg _ (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 32 + 1 * q.val = q.val; rw [e1]; omega

/-- Entry (p, q) of tile t of the dense product is entry (10000·t + p, q) of the array. -/
theorem blk1_1_apply (t : Fin cfg1.N) (p : Fin 10000) (q : Fin 32) (hg : t.val * 10000 + p.val < 100000) :
    (iblk1 (F := Ideal) V c 1 t : S10000x32.Idx → EReal) (ix2 p q)
      = (V c main_v30 : S100000x32.Idx → EReal) (ix2 (⟨t.val * 10000 + p.val, hg⟩ : Fin 100000) q) := by
  obtain ⟨-, -, e0, e1, -⟩ := idx_facts1 t
  unfold iblk1
  show (V c main_v30 : S100000x32.Idx → EReal) (((cfg1.win 1).blk t).view.emb (ix2 p q)) = _
  refine congrArg _ (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 32 + 1 * q.val = q.val; rw [e1]; omega

/-- Entry (p, 0) of tile t of the column is entry (10000·t + p, 0) of the column. -/
theorem blk1_2_apply (t : Fin cfg1.N) (p : Fin 10000) (hg : t.val * 10000 + p.val < 100000) :
    (iblk1 (F := Ideal) V c 2 t : S10000x1.Idx → EReal) (ix2 p (0 : Fin 1))
      = (V c main_v28 : S100000x1.Idx → EReal) (ix2 (⟨t.val * 10000 + p.val, hg⟩ : Fin 100000) (0 : Fin 1)) := by
  obtain ⟨-, -, -, -, e0, e1, -⟩ := idx_facts1 t
  unfold iblk1
  show (V c main_v28 : S100000x1.Idx → EReal) (((cfg1.win 2).blk t).view.emb (ix2 p (0 : Fin 1))) = _
  refine congrArg _ (funext fun a => Fin.ext ?_)
  match a with
  | ⟨0, _⟩ => show win1_2.index t (0 : Fin 2) * 10000 + 1 * p.val = t.val * 10000 + p.val; rw [e0]; omega
  | ⟨1, _⟩ => show win1_2.index t (1 : Fin 2) * 1 + 1 * 0 = 0; rw [e1]

/-- The one tile of the bias row is the row. -/
theorem blk1_3_apply (t : Fin cfg1.N) (q : Fin 32) :
    (iblk1 (F := Ideal) V c 3 t : S1x32.Idx → EReal) (ix2 (0 : Fin 1) q)
      = (V c main_v44 : S1x32.Idx → EReal) (ix2 (0 : Fin 1) q) := by
  obtain ⟨-, -, -, -, -, -, e0, e1, -⟩ := idx_facts1 t
  unfold iblk1
  show (V c main_v44 : S1x32.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 32 + 1 * q.val = q.val; rw [e1]; omega

/-- Entry (p, q) of the result's tile t sits at entry (10000·t + p, q) of the result. -/
theorem emb1_4 (t : Fin cfg1.N) (p : Fin 10000) (q : Fin 32) (hg : t.val * 10000 + p.val < 100000) :
    (((cfg1.win 4).blk t).view.emb (ix2 p q) : S100000x32.Idx) = ix2 (⟨t.val * 10000 + p.val, hg⟩ : Fin 100000) q := by
  obtain ⟨-, -, -, -, -, -, -, -, e0, e1⟩ := idx_facts1 t
  funext a
  apply Fin.ext
  match a with
  | ⟨0, _⟩ => show win1_4.index t (0 : Fin 2) * 10000 + 1 * p.val = t.val * 10000 + p.val; rw [e0]; omega
  | ⟨1, _⟩ => show win1_4.index t (1 : Fin 2) * 32 + 1 * q.val = q.val; rw [e1]; omega

end Blocks

/-! ## What a point writes back, and the cover -/

/-- WHAT POINT t WRITES BACK is tile t of the layer's combine of the arrays the region finds. -/
theorem flushed1_4_eq (V : (c : Dev nD) → (b : Ref sig .tc) → Buf (Elt Ideal) ((c : Thread nD τ).loc b)) (c : Dev nD)
    (d : (⟨S100000, .f32⟩ : BufTy).Contents (Elt Ideal)) (b : (⟨S32, .f32⟩ : BufTy).Contents (Elt Ideal))
    (hd : ∀ p : Fin 100000, (V c main_v28 : S100000x1.Idx → EReal) (ix2 p (0 : Fin 1)) = d (ix1 p))
    (hb : ∀ q : Fin 32, (V c main_v44 : S1x32.Idx → EReal) (ix2 (0 : Fin 1) q) = b (ix1 q)) (t : Fin cfg1.N) :
    (dat1 (F := Ideal) V c).flushed 4 t
      = ((cfg1.win 4).blk t).view.read (Elt Ideal) (Cert.Layer.comb1 (F := Ideal) (V c main_v43) (V c main_v30) d b) := by
  show (cfg1.win 4).cut (grid1.coords t) ((dat1 V c).after 4 t) = _
  rw [after1_4]
  unfold out1_4
  rw [View.canon_unit_zero hz1]
  simp only [View.ld_unit_zero (S := S10000x32) hz1, View.ld_unit_zero (S := S10000x1) hz1, View.ld_unit_zero (S := S1x32) hz1]
  funext j
  obtain ⟨p, q, rfl⟩ : ∃ (p : Fin 10000) (q : Fin 32), j = ix2 p q := ⟨j 0, j 1, eq_ix2 j⟩
  have hg : t.val * 10000 + p.val < 100000 := by have := t_lt1 t; have := p.isLt; omega
  show k1_pay1 (F := Ideal) (iblk1 V c 0 t) (iblk1 V c 2 t) (iblk1 V c 1 t) (iblk1 V c 3 t) (ix2 p q)
    = Cert.Layer.comb1 (F := Ideal) (V c main_v43) (V c main_v30) d b (((cfg1.win 4).blk t).view.emb (ix2 p q))
  rw [emb1_4 t p q hg, comb1_apply, pay1_apply, blk1_0_apply V c t p q hg, blk1_1_apply V c t p q hg,
    blk1_2_apply V c t p hg, blk1_3_apply V c t q, hd, hb]

/-- An index of the result is in point t's tile iff each coordinate is in the tile's range on its axis. -/
theorem mem_blk1_4 (t : Fin cfg1.N) (i : S100000x32.Idx) :
    i ∈ ((cfg1.win 4).blk t).view.set ↔ ∀ a : Fin 2, win1_4.index t a * S10000x32.size a ≤ (i a).val
      ∧ (i a).val < win1_4.index t a * S10000x32.size a + S10000x32.size a := by
  show i ∈ ((View.whole main_v45).slice (win1_4.rect t)).set ↔ _
  rw [View.set_slice_whole, Rect.mem_set_unit]
  exact Iff.rfl

/-- Every entry of the result is in some point's tile: row g is in tile g / 10000. -/
theorem cover1 (i : S100000x32.Idx) : ∃ t : Fin cfg1.N, (cfg1.win 4).flush t = true ∧ i ∈ ((cfg1.win 4).blk t).view.set := by
  have hi0 : (i 0).val < 100000 := idx2_lt0 i
  have hi1 : (i 1).val < 32 := idx2_lt1 i
  have ht : (i 0).val / 10000 < cfg1.N := lt_of_lt_of_eq (by omega : (i 0).val / 10000 < 10) N_1.symm
  refine ⟨⟨(i 0).val / 10000, ht⟩, flush1_4 _, ?_⟩
  obtain ⟨-, -, -, -, -, -, -, -, e0, e1⟩ := idx_facts1 ⟨(i 0).val / 10000, ht⟩
  rw [mem_blk1_4]
  intro a
  match a with
  | ⟨0, _⟩ =>
    show win1_4.index ⟨(i 0).val / 10000, ht⟩ (0 : Fin 2) * 10000 ≤ (i 0).val
      ∧ (i 0).val < win1_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_4.index ⟨(i 0).val / 10000, ht⟩ (1 : Fin 2) * 32 ≤ (i 1).val
      ∧ (i 1).val < win1_4.index ⟨(i 0).val / 10000, ht⟩ (1 : Fin 2) * 32 + 32
    rw [e1]; omega

/-! ## The region -/

/-- After the region, its result array is the layer's combine of the arrays it was given, when the column it
    finds is the vector `d` stood up as a column and the row it finds is the vector `b` laid as a row. -/
theorem comb_region1 (V : (c : Dev nD) → (b : Ref sig .tc) → Buf (Elt Ideal) ((c : Thread nD τ).loc b)) (c : Dev nD)
    (d : (⟨S100000, .f32⟩ : BufTy).Contents (Elt Ideal)) (b : (⟨S32, .f32⟩ : BufTy).Contents (Elt Ideal))
    (hd : ∀ p : Fin 100000, (V c main_v28 : S100000x1.Idx → EReal) (ix2 p (0 : Fin 1)) = d (ix1 p))
    (hb : ∀ q : Fin 32, (V c main_v44 : S1x32.Idx → EReal) (ix2 (0 : Fin 1) q) = b (ix1 q)) :
    (dat1 (F := Ideal) V c).arrAt 4 cfg1.N = Cert.Layer.comb1 (F := Ideal) (V c main_v43) (V c main_v30) d b :=
  (dat1 (F := Ideal) V c).arrAt_eq_of_cover 4 _ (fun t _ => flushed1_4_eq V c d b hd hb t) cover1

end Cert.KernelIdeal.Regions

end
-- ==== Proof.CombRegion3.lean ====
/-
  The second combine, tile by tile. The region walks the 100000 rows in ten tiles of 10000 rows; at tile t it
  reads the same rows of the aggregated messages, of the dense product and of the column of squared
  inverse-root degrees, and the one bias row, and writes max ((agg + d · y) + b, 0) back as the same rows of
  the result: a pointwise function of the arrays, so the ten written tiles together are that function of the
  whole arrays.
-/
import proofs.«137348_j2937757630534_1_alg».proof.Proof.Gen.KernelIdeal.Frame
import proofs.«137348_j2937757630534_1_alg».proof.Proof.LayerSpec
import proofs.«137348_j2937757630534_1_alg».proof.Proof.LibTileCombine
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The tile's payload and the layer's combine, read at an entry -/

/-- The zero offsets of a whole-buffer load or store, however they are spelt. -/
theorem hz3 : (![0, 0] : Fin 2 → Nat) = fun _ => 0 := funext fun a => by fin_cases a <;> rfl

/-- Entry (p, q) of what the body computes from its four tiles. -/
theorem pay3_apply (x0 x1 : Vec Ideal S10000x64 .f32) (x2 : Vec Ideal S10000x1 .f32) (x3 : Vec Ideal S1x64 .f32)
    (p : Fin 10000) (q : Fin 64) :
    k3_pay1 (F := Ideal) x0 x2 x1 x3 (ix2 p q)
      = max ((x0 (ix2 p q) + x2 (ix2 p (0 : Fin 1)) * x1 (ix2 p q)) + x3 (ix2 (0 : Fin 1) q)) (Ideal.ofBits .f32 0x00000000#32) :=
  Cert.TileCombine.tile_relu_apply x0 x1 x2 x3 _ _ _ _ _ _ _ p q

/-- Entry (g, q) of the layer's combine of whole arrays. -/
theorem comb2_apply (agg y : (⟨S100000x64, .f32⟩ : BufTy).Contents (Elt Ideal)) (d : (⟨S100000, .f32⟩ : BufTy).Contents (Elt Ideal))
    (b : (⟨S64, .f32⟩ : BufTy).Contents (Elt Ideal)) (g : Fin 100000) (q : Fin 64) :
    Cert.Layer.comb2 (F := Ideal) agg y d b (ix2 g q)
      = max ((agg (ix2 g q) + d (ix1 g) * y (ix2 g q)) + b (ix1 q)) (Ideal.ofBits .f32 0x00000000#32) :=
  Cert.TileCombine.host_relu_apply agg y d b _ _ _ _ _ _ g q

/-! ## The windows' blocks: tile t holds rows 10000·t … 10000·t + 9999 -/

/-- The printed index maps, decided over the ten grid points: the three row-tiled inputs and the output are at
    block (t, 0), the bias row at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- A grid point is one of ten. -/
theorem t_lt3 (t : Fin cfg3.N) : t.val < 10 := lt_of_lt_of_eq t.isLt N_3

section Blocks
variable (V : (c : Dev nD) → (b : Ref sig .tc) → Buf (Elt Ideal) ((c : Thread nD τ).loc b)) (c : Dev nD)

/-- Entry (p, q) of tile t of the aggregated messages is entry (10000·t + p, q) of the array. -/
theorem blk3_0_apply (t : Fin cfg3.N) (p : Fin 10000) (q : Fin 64) (hg : t.val * 10000 + p.val < 100000) :
    (iblk3 (F := Ideal) V c 0 t : S10000x64.Idx → EReal) (ix2 p q)
      = (V c main_v59 : S100000x64.Idx → EReal) (ix2 (⟨t.val * 10000 + p.val, hg⟩ : Fin 100000) q) := by
  obtain ⟨e0, e1, -⟩ := idx_facts3 t
  unfold iblk3
  show (V c main_v59 : S100000x64.Idx → EReal) (((cfg3.win 0).blk t).view.emb (ix2 p q)) = _
  refine congrArg _ (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 64 + 1 * q.val = q.val; rw [e1]; omega

/-- Entry (p, q) of tile t of the dense product is entry (10000·t + p, q) of the array. -/
theorem blk3_1_apply (t : Fin cfg3.N) (p : Fin 10000) (q : Fin 64) (hg : t.val * 10000 + p.val < 100000) :
    (iblk3 (F := Ideal) V c 1 t : S10000x64.Idx → EReal) (ix2 p q)
      = (V c main_v46 : S100000x64.Idx → EReal) (ix2 (⟨t.val * 10000 + p.val, hg⟩ : Fin 100000) q) := by
  obtain ⟨-, -, e0, e1, -⟩ := idx_facts3 t
  unfold iblk3
  show (V c main_v46 : S100000x64.Idx → EReal) (((cfg3.win 1).blk t).view.emb (ix2 p q)) = _
  refine congrArg _ (funext fun a => Fin.ext ?_)
  match a with
  | ⟨0, _⟩ => show win3_1.index t (0 : Fin 2) * 10000 + 1 * p.val = t.val * 10000 + p.val; rw [e0]; omega
  | ⟨1, _⟩ => show win3_1.index t (1 : Fin 2) * 64 + 1 * q.val = q.val; rw [e1]; omega

/-- Entry (p, 0) of tile t of the column is entry (10000·t + p, 0) of the column. -/
theorem blk3_2_apply (t : Fin cfg3.N) (p : Fin 10000) (hg : t.val * 10000 + p.val < 100000) :
    (iblk3 (F := Ideal) V c 2 t : S10000x1.Idx → EReal) (ix2 p (0 : Fin 1))
      = (V c main_v28 : S100000x1.Idx → EReal) (ix2 (⟨t.val * 10000 + p.val, hg⟩ : Fin 100000) (0 : Fin 1)) := by
  obtain ⟨-, -, -, -, e0, e1, -⟩ := idx_facts3 t
  unfold iblk3
  show (V c main_v28 : S100000x1.Idx → EReal) (((cfg3.win 2).blk t).view.emb (ix2 p (0 : Fin 1))) = _
  refine congrArg _ (funext fun a => Fin.ext ?_)
  match a with
  | ⟨0, _⟩ => show win3_2.index t (0 : Fin 2) * 10000 + 1 * p.val = t.val * 10000 + p.val; rw [e0]; omega
  | ⟨1, _⟩ => show win3_2.index t (1 : Fin 2) * 1 + 1 * 0 = 0; rw [e1]

/-- The one tile of the bias row is the row. -/
theorem blk3_3_apply (t : Fin cfg3.N) (q : Fin 64) :
    (iblk3 (F := Ideal) V c 3 t : S1x64.Idx → EReal) (ix2 (0 : Fin 1) q)
      = (V c main_v60 : S1x64.Idx → EReal) (ix2 (0 : Fin 1) q) := by
  obtain ⟨-, -, -, -, -, -, e0, e1, -⟩ := idx_facts3 t
  unfold iblk3
  show (V c main_v60 : S1x64.Idx → EReal) (((cfg3.win 3).blk t).view.emb (ix2 (0 : Fin 1) q)) = _
  refine congrArg _ (funext fun a => Fin.ext ?_)
  match a with
  | ⟨0, _⟩ => show win3_3.index t (0 : Fin 2) * 1 + 1 * 0 = 0; rw [e0]
  | ⟨1, _⟩ => show win3_3.index t (1 : Fin 2) * 64 + 1 * q.val = q.val; rw [e1]; omega

/-- Entry (p, q) of the result's tile t sits at entry (10000·t + p, q) of the result. -/
theorem emb3_4 (t : Fin cfg3.N) (p : Fin 10000) (q : Fin 64) (hg : t.val * 10000 + p.val < 100000) :
    (((cfg3.win 4).blk t).view.emb (ix2 p q) : S100000x64.Idx) = ix2 (⟨t.val * 10000 + p.val, hg⟩ : Fin 100000) q := by
  obtain ⟨-, -, -, -, -, -, -, -, e0, e1⟩ := idx_facts3 t
  funext a
  apply Fin.ext
  match a with
  | ⟨0, _⟩ => show win3_4.index t (0 : Fin 2) * 10000 + 1 * p.val = t.val * 10000 + p.val; rw [e0]; omega
  | ⟨1, _⟩ => show win3_4.index t (1 : Fin 2) * 64 + 1 * q.val = q.val; rw [e1]; omega

end Blocks

/-! ## What a point writes back, and the cover -/

/-- WHAT POINT t WRITES BACK is tile t of the layer's combine of the arrays the region finds. -/
theorem flushed3_4_eq (V : (c : Dev nD) → (b : Ref sig .tc) → Buf (Elt Ideal) ((c : Thread nD τ).loc b)) (c : Dev nD)
    (d : (⟨S100000, .f32⟩ : BufTy).Contents (Elt Ideal)) (b : (⟨S64, .f32⟩ : BufTy).Contents (Elt Ideal))
    (hd : ∀ p : Fin 100000, (V c main_v28 : S100000x1.Idx → EReal) (ix2 p (0 : Fin 1)) = d (ix1 p))
    (hb : ∀ q : Fin 64, (V c main_v60 : S1x64.Idx → EReal) (ix2 (0 : Fin 1) q) = b (ix1 q)) (t : Fin cfg3.N) :
    (dat3 (F := Ideal) V c).flushed 4 t
      = ((cfg3.win 4).blk t).view.read (Elt Ideal) (Cert.Layer.comb2 (F := Ideal) (V c main_v59) (V c main_v46) d b) := by
  show (cfg3.win 4).cut (grid3.coords t) ((dat3 V c).after 4 t) = _
  rw [after3_4]
  unfold out3_4
  rw [View.canon_unit_zero hz3]
  simp only [View.ld_unit_zero (S := S10000x64) hz3, View.ld_unit_zero (S := S10000x1) hz3, View.ld_unit_zero (S := S1x64) hz3]
  funext j
  obtain ⟨p, q, rfl⟩ : ∃ (p : Fin 10000) (q : Fin 64), j = ix2 p q := ⟨j 0, j 1, eq_ix2 j⟩
  have hg : t.val * 10000 + p.val < 100000 := by have := t_lt3 t; have := p.isLt; omega
  show k3_pay1 (F := Ideal) (iblk3 V c 0 t) (iblk3 V c 2 t) (iblk3 V c 1 t) (iblk3 V c 3 t) (ix2 p q)
    = Cert.Layer.comb2 (F := Ideal) (V c main_v59) (V c main_v46) d b (((cfg3.win 4).blk t).view.emb (ix2 p q))
  rw [emb3_4 t p q hg, comb2_apply, pay3_apply, blk3_0_apply V c t p q hg, blk3_1_apply V c t p q hg,
    blk3_2_apply V c t p hg, blk3_3_apply V c t q, hd, hb]

/-- An index of the result is in point t's tile iff each coordinate is in the tile's range on its axis. -/
theorem mem_blk3_4 (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v61).slice (win3_4.rect t)).set ↔ _
  rw [View.set_slice_whole, Rect.mem_set_unit]
  exact Iff.rfl

/-- Every entry of the result is in some point's tile: row g is in tile g / 10000. -/
theorem cover3 (i : S100000x64.Idx) : ∃ t : Fin cfg3.N, (cfg3.win 4).flush t = true ∧ i ∈ ((cfg3.win 4).blk t).view.set := by
  have hi0 : (i 0).val < 100000 := idx2_lt0 i
  have hi1 : (i 1).val < 64 := idx2_lt1 i
  have ht : (i 0).val / 10000 < cfg3.N := lt_of_lt_of_eq (by omega : (i 0).val / 10000 < 10) N_3.symm
  refine ⟨⟨(i 0).val / 10000, ht⟩, flush3_4 _, ?_⟩
  obtain ⟨-, -, -, -, -, -, -, -, e0, e1⟩ := idx_facts3 ⟨(i 0).val / 10000, ht⟩
  rw [mem_blk3_4]
  intro a
  match a with
  | ⟨0, _⟩ =>
    show win3_4.index ⟨(i 0).val / 10000, ht⟩ (0 : Fin 2) * 10000 ≤ (i 0).val
      ∧ (i 0).val < win3_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win3_4.index ⟨(i 0).val / 10000, ht⟩ (1 : Fin 2) * 64 ≤ (i 1).val
      ∧ (i 1).val < win3_4.index ⟨(i 0).val / 10000, ht⟩ (1 : Fin 2) * 64 + 64
    rw [e1]; omega

/-! ## The region -/

/-- After the region, its result array is the layer's combine of the arrays it was given, when the column it
    finds is the vector `d` stood up as a column and the row it finds is the vector `b` laid as a row. -/
theorem comb_region3 (V : (c : Dev nD) → (b : Ref sig .tc) → Buf (Elt Ideal) ((c : Thread nD τ).loc b)) (c : Dev nD)
    (d : (⟨S100000, .f32⟩ : BufTy).Contents (Elt Ideal)) (b : (⟨S64, .f32⟩ : BufTy).Contents (Elt Ideal))
    (hd : ∀ p : Fin 100000, (V c main_v28 : S100000x1.Idx → EReal) (ix2 p (0 : Fin 1)) = d (ix1 p))
    (hb : ∀ q : Fin 64, (V c main_v60 : S1x64.Idx → EReal) (ix2 (0 : Fin 1) q) = b (ix1 q)) :
    (dat3 (F := Ideal) V c).arrAt 4 cfg3.N = Cert.Layer.comb2 (F := Ideal) (V c main_v59) (V c main_v46) d b :=
  (dat3 (F := Ideal) V c).arrAt_eq_of_cover 4 _ (fun t _ => flushed3_4_eq V c d b hd hb t) cover3

end Cert.KernelIdeal.Regions

end
-- ==== Proof.CombRegion5.lean ====
/-
  The combine of layer 3, tile by tile. The region walks the 100000 rows in ten tiles of 10000 rows; at tile t it
  reads the same rows of the aggregated messages, of the dense product and of the column of squared
  inverse-root degrees, and the one bias row, and writes max ((agg + d · y) + b, 0) back as the same rows of
  the result: a pointwise function of the arrays, so the ten written tiles together are that function of the
  whole arrays.
-/
import proofs.«137348_j2937757630534_1_alg».proof.Proof.Gen.KernelIdeal.Frame
import proofs.«137348_j2937757630534_1_alg».proof.Proof.LayerSpec
import proofs.«137348_j2937757630534_1_alg».proof.Proof.LibTileCombine
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The tile's payload and the layer's combine, read at an entry -/

/-- The zero offsets of a whole-buffer load or store, however they are spelt. -/
theorem comb5_hz : (![0, 0] : Fin 2 → Nat) = fun _ => 0 := funext fun a => by fin_cases a <;> rfl

/-- Entry (p, q) of what the body computes from its four tiles. -/
theorem comb5_pay_apply (x0 x1 : Vec Ideal S10000x128 .f32) (x2 : Vec Ideal S10000x1 .f32) (x3 : Vec Ideal S1x128 .f32)
    (p : Fin 10000) (q : Fin 128) :
    k5_pay1 (F := Ideal) x0 x2 x1 x3 (ix2 p q)
      = max ((x0 (ix2 p q) + x2 (ix2 p (0 : Fin 1)) * x1 (ix2 p q)) + x3 (ix2 (0 : Fin 1) q)) (Ideal.ofBits .f32 0x00000000#32) :=
  Cert.TileCombine.tile_relu_apply x0 x1 x2 x3 _ _ _ _ _ _ _ p q

/-- Entry (g, q) of the layer's combine of whole arrays. -/
theorem comb5_whole_apply (agg y : (⟨S100000x128, .f32⟩ : BufTy).Contents (Elt Ideal)) (d : (⟨S100000, .f32⟩ : BufTy).Contents (Elt Ideal))
    (b : (⟨S128, .f32⟩ : BufTy).Contents (Elt Ideal)) (g : Fin 100000) (q : Fin 128) :
    Cert.Layer.comb3 (F := Ideal) agg y d b (ix2 g q)
      = max ((agg (ix2 g q) + d (ix1 g) * y (ix2 g q)) + b (ix1 q)) (Ideal.ofBits .f32 0x00000000#32) :=
  Cert.TileCombine.host_relu_apply agg y d b _ _ _ _ _ _ g q

/-! ## The windows' blocks: tile t holds rows 10000·t … 10000·t + 9999 -/

/-- The printed index maps, decided over the ten grid points: the three row-tiled inputs and the output are at
    block (t, 0), the bias row at block (0, 0). -/
theorem comb5_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- A grid point is one of ten. -/
theorem comb5_t_lt (t : Fin cfg5.N) : t.val < 10 := lt_of_lt_of_eq t.isLt N_5

section Blocks
variable (V : (c : Dev nD) → (b : Ref sig .tc) → Buf (Elt Ideal) ((c : Thread nD τ).loc b)) (c : Dev nD)

/-- Entry (p, q) of tile t of the aggregated messages is entry (10000·t + p, q) of the array. -/
theorem comb5_blk0_apply (t : Fin cfg5.N) (p : Fin 10000) (q : Fin 128) (hg : t.val * 10000 + p.val < 100000) :
    (iblk5 (F := Ideal) V c 0 t : S10000x128.Idx → EReal) (ix2 p q)
      = (V c main_v75 : S100000x128.Idx → EReal) (ix2 (⟨t.val * 10000 + p.val, hg⟩ : Fin 100000) q) := by
  obtain ⟨e0, e1, -⟩ := comb5_idx t
  unfold iblk5
  show (V c main_v75 : S100000x128.Idx → EReal) (((cfg5.win 0).blk t).view.emb (ix2 p q)) = _
  refine congrArg _ (funext fun a => Fin.ext ?_)
  match a with
  | ⟨0, _⟩ => show win5_0.index t (0 : Fin 2) * 10000 + 1 * p.val = t.val * 10000 + p.val; rw [e0]; omega
  | ⟨1, _⟩ => show win5_0.index t (1 : Fin 2) * 128 + 1 * q.val = q.val; rw [e1]; omega

/-- Entry (p, q) of tile t of the dense product is entry (10000·t + p, q) of the array. -/
theorem comb5_blk1_apply (t : Fin cfg5.N) (p : Fin 10000) (q : Fin 128) (hg : t.val * 10000 + p.val < 100000) :
    (iblk5 (F := Ideal) V c 1 t : S10000x128.Idx → EReal) (ix2 p q)
      = (V c main_v62 : S100000x128.Idx → EReal) (ix2 (⟨t.val * 10000 + p.val, hg⟩ : Fin 100000) q) := by
  obtain ⟨-, -, e0, e1, -⟩ := comb5_idx t
  unfold iblk5
  show (V c main_v62 : S100000x128.Idx → EReal) (((cfg5.win 1).blk t).view.emb (ix2 p q)) = _
  refine congrArg _ (funext fun a => Fin.ext ?_)
  match a with
  | ⟨0, _⟩ => show win5_1.index t (0 : Fin 2) * 10000 + 1 * p.val = t.val * 10000 + p.val; rw [e0]; omega
  | ⟨1, _⟩ => show win5_1.index t (1 : Fin 2) * 128 + 1 * q.val = q.val; rw [e1]; omega

/-- Entry (p, 0) of tile t of the column is entry (10000·t + p, 0) of the column. -/
theorem comb5_blk2_apply (t : Fin cfg5.N) (p : Fin 10000) (hg : t.val * 10000 + p.val < 100000) :
    (iblk5 (F := Ideal) V c 2 t : S10000x1.Idx → EReal) (ix2 p (0 : Fin 1))
      = (V c main_v28 : S100000x1.Idx → EReal) (ix2 (⟨t.val * 10000 + p.val, hg⟩ : Fin 100000) (0 : Fin 1)) := by
  obtain ⟨-, -, -, -, e0, e1, -⟩ := comb5_idx t
  unfold iblk5
  show (V c main_v28 : S100000x1.Idx → EReal) (((cfg5.win 2).blk t).view.emb (ix2 p (0 : Fin 1))) = _
  refine congrArg _ (funext fun a => Fin.ext ?_)
  match a with
  | ⟨0, _⟩ => show win5_2.index t (0 : Fin 2) * 10000 + 1 * p.val = t.val * 10000 + p.val; rw [e0]; omega
  | ⟨1, _⟩ => show win5_2.index t (1 : Fin 2) * 1 + 1 * 0 = 0; rw [e1]

/-- The one tile of the bias row is the row. -/
theorem comb5_blk3_apply (t : Fin cfg5.N) (q : Fin 128) :
    (iblk5 (F := Ideal) V c 3 t : S1x128.Idx → EReal) (ix2 (0 : Fin 1) q)
      = (V c main_v76 : S1x128.Idx → EReal) (ix2 (0 : Fin 1) q) := by
  obtain ⟨-, -, -, -, -, -, e0, e1, -⟩ := comb5_idx t
  unfold iblk5
  show (V c main_v76 : S1x128.Idx → EReal) (((cfg5.win 3).blk t).view.emb (ix2 (0 : Fin 1) q)) = _
  refine congrArg _ (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega

/-- Entry (p, q) of the result's tile t sits at entry (10000·t + p, q) of the result. -/
theorem comb5_out_emb (t : Fin cfg5.N) (p : Fin 10000) (q : Fin 128) (hg : t.val * 10000 + p.val < 100000) :
    (((cfg5.win 4).blk t).view.emb (ix2 p q) : S100000x128.Idx) = ix2 (⟨t.val * 10000 + p.val, hg⟩ : Fin 100000) q := by
  obtain ⟨-, -, -, -, -, -, -, -, e0, e1⟩ := comb5_idx t
  funext a
  apply Fin.ext
  match a with
  | ⟨0, _⟩ => show win5_4.index t (0 : Fin 2) * 10000 + 1 * p.val = t.val * 10000 + p.val; rw [e0]; omega
  | ⟨1, _⟩ => show win5_4.index t (1 : Fin 2) * 128 + 1 * q.val = q.val; rw [e1]; omega

end Blocks

/-! ## What a point writes back, and the cover -/

/-- WHAT POINT t WRITES BACK is tile t of the layer's combine of the arrays the region finds. -/
theorem comb5_flushed (V : (c : Dev nD) → (b : Ref sig .tc) → Buf (Elt Ideal) ((c : Thread nD τ).loc b)) (c : Dev nD)
    (d : (⟨S100000, .f32⟩ : BufTy).Contents (Elt Ideal)) (b : (⟨S128, .f32⟩ : BufTy).Contents (Elt Ideal))
    (hd : ∀ p : Fin 100000, (V c main_v28 : S100000x1.Idx → EReal) (ix2 p (0 : Fin 1)) = d (ix1 p))
    (hb : ∀ q : Fin 128, (V c main_v76 : S1x128.Idx → EReal) (ix2 (0 : Fin 1) q) = b (ix1 q)) (t : Fin cfg5.N) :
    (dat5 (F := Ideal) V c).flushed 4 t
      = ((cfg5.win 4).blk t).view.read (Elt Ideal) (Cert.Layer.comb3 (F := Ideal) (V c main_v75) (V c main_v62) d b) := by
  show (cfg5.win 4).cut (grid5.coords t) ((dat5 V c).after 4 t) = _
  rw [after5_4]
  unfold out5_4
  rw [View.canon_unit_zero comb5_hz]
  simp only [View.ld_unit_zero (S := S10000x128) comb5_hz, View.ld_unit_zero (S := S10000x1) comb5_hz, View.ld_unit_zero (S := S1x128) comb5_hz]
  funext j
  obtain ⟨p, q, rfl⟩ : ∃ (p : Fin 10000) (q : Fin 128), j = ix2 p q := ⟨j 0, j 1, eq_ix2 j⟩
  have hg : t.val * 10000 + p.val < 100000 := by have := comb5_t_lt t; have := p.isLt; omega
  show k5_pay1 (F := Ideal) (iblk5 V c 0 t) (iblk5 V c 2 t) (iblk5 V c 1 t) (iblk5 V c 3 t) (ix2 p q)
    = Cert.Layer.comb3 (F := Ideal) (V c main_v75) (V c main_v62) d b (((cfg5.win 4).blk t).view.emb (ix2 p q))
  rw [comb5_out_emb t p q hg, comb5_whole_apply, comb5_pay_apply, comb5_blk0_apply V c t p q hg, comb5_blk1_apply V c t p q hg,
    comb5_blk2_apply V c t p hg, comb5_blk3_apply V c t q, hd, hb]

/-- An index of the result is in point t's tile iff each coordinate is in the tile's range on its axis. -/
theorem comb5_mem_blk (t : Fin cfg5.N) (i : S100000x128.Idx) :
    i ∈ ((cfg5.win 4).blk t).view.set ↔ ∀ a : Fin 2, win5_4.index t a * S10000x128.size a ≤ (i a).val
      ∧ (i a).val < win5_4.index t a * S10000x128.size a + S10000x128.size a := by
  show i ∈ ((View.whole main_v77).slice (win5_4.rect t)).set ↔ _
  rw [View.set_slice_whole, Rect.mem_set_unit]
  exact Iff.rfl

/-- Every entry of the result is in some point's tile: row g is in tile g / 10000. -/
theorem comb5_cover (i : S100000x128.Idx) : ∃ t : Fin cfg5.N, (cfg5.win 4).flush t = true ∧ i ∈ ((cfg5.win 4).blk t).view.set := by
  have hi0 : (i 0).val < 100000 := idx2_lt0 i
  have hi1 : (i 1).val < 128 := idx2_lt1 i
  have ht : (i 0).val / 10000 < cfg5.N := lt_of_lt_of_eq (by omega : (i 0).val / 10000 < 10) N_5.symm
  refine ⟨⟨(i 0).val / 10000, ht⟩, flush5_4 _, ?_⟩
  obtain ⟨-, -, -, -, -, -, -, -, e0, e1⟩ := comb5_idx ⟨(i 0).val / 10000, ht⟩
  rw [comb5_mem_blk]
  intro a
  match a with
  | ⟨0, _⟩ =>
    show win5_4.index ⟨(i 0).val / 10000, ht⟩ (0 : Fin 2) * 10000 ≤ (i 0).val
      ∧ (i 0).val < win5_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win5_4.index ⟨(i 0).val / 10000, ht⟩ (1 : Fin 2) * 128 ≤ (i 1).val
      ∧ (i 1).val < win5_4.index ⟨(i 0).val / 10000, ht⟩ (1 : Fin 2) * 128 + 128
    rw [e1]; omega

/-! ## The region -/

/-- After the region, its result array is the layer's combine of the arrays it was given, when the column it
    finds is the vector `d` stood up as a column and the row it finds is the vector `b` laid as a row. -/
theorem comb_region5 (V : (c : Dev nD) → (b : Ref sig .tc) → Buf (Elt Ideal) ((c : Thread nD τ).loc b)) (c : Dev nD)
    (d : (⟨S100000, .f32⟩ : BufTy).Contents (Elt Ideal)) (b : (⟨S128, .f32⟩ : BufTy).Contents (Elt Ideal))
    (hd : ∀ p : Fin 100000, (V c main_v28 : S100000x1.Idx → EReal) (ix2 p (0 : Fin 1)) = d (ix1 p))
    (hb : ∀ q : Fin 128, (V c main_v76 : S1x128.Idx → EReal) (ix2 (0 : Fin 1) q) = b (ix1 q)) :
    (dat5 (F := Ideal) V c).arrAt 4 cfg5.N = Cert.Layer.comb3 (F := Ideal) (V c main_v75) (V c main_v62) d b :=
  (dat5 (F := Ideal) V c).arrAt_eq_of_cover 4 _ (fun t _ => comb5_flushed V c d b hd hb t) comb5_cover

end Cert.KernelIdeal.Regions

end
-- ==== Proof.CombRegion7.lean ====
/-
  The last combine, tile by tile. The region walks the 100000 rows in ten tiles of 10000 rows; at tile t it
  reads the same rows of the aggregated messages, of the dense product and of the column of squared
  inverse-root degrees, and the one bias row, and writes (agg + d · y) + b back as the same rows of the result,
  with no maximum in the last layer: a pointwise function of the arrays, so the ten written tiles together are
  that function of the whole arrays.
-/
import proofs.«137348_j2937757630534_1_alg».proof.Proof.Gen.KernelIdeal.Frame
import proofs.«137348_j2937757630534_1_alg».proof.Proof.LayerSpec
import proofs.«137348_j2937757630534_1_alg».proof.Proof.LibTileCombine
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The tile's payload and the layer's combine, read at an entry -/

/-- The zero offsets of a whole-buffer load or store, however they are spelt. -/
theorem hz7 : (![0, 0] : Fin 2 → Nat) = fun _ => 0 := funext fun a => by fin_cases a <;> rfl

/-- Entry (p, q) of what the body computes from its four tiles. -/
theorem pay7_apply (x0 x1 : Vec Ideal S10000x10 .f32) (x2 : Vec Ideal S10000x1 .f32) (x3 : Vec Ideal S1x10 .f32)
    (p : Fin 10000) (q : Fin 10) :
    k7_pay1 (F := Ideal) x0 x2 x1 x3 (ix2 p q)
      = (x0 (ix2 p q) + x2 (ix2 p (0 : Fin 1)) * x1 (ix2 p q)) + x3 (ix2 (0 : Fin 1) q) :=
  Cert.TileCombine.tile_affine_apply x0 x1 x2 x3 _ _ _ _ _ _ p q

/-- Entry (g, q) of the layer's combine of whole arrays. -/
theorem comb4_apply (agg y : (⟨S100000x10, .f32⟩ : BufTy).Contents (Elt Ideal)) (d : (⟨S100000, .f32⟩ : BufTy).Contents (Elt Ideal))
    (b : (⟨S10, .f32⟩ : BufTy).Contents (Elt Ideal)) (g : Fin 100000) (q : Fin 10) :
    Cert.Layer.comb4 (F := Ideal) agg y d b (ix2 g q)
      = (agg (ix2 g q) + d (ix1 g) * y (ix2 g q)) + b (ix1 q) :=
  Cert.TileCombine.host_affine_apply agg y d b _ _ _ _ g q

/-! ## The windows' blocks: tile t holds rows 10000·t … 10000·t + 9999 -/

/-- The printed index maps, decided over the ten grid points: the three row-tiled inputs and the output are at
    block (t, 0), the bias row at block (0, 0). -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- A grid point is one of ten. -/
theorem t_lt7 (t : Fin cfg7.N) : t.val < 10 := lt_of_lt_of_eq t.isLt N_7

section Blocks
variable (V : (c : Dev nD) → (b : Ref sig .tc) → Buf (Elt Ideal) ((c : Thread nD τ).loc b)) (c : Dev nD)

/-- Entry (p, q) of tile t of the aggregated messages is entry (10000·t + p, q) of the array. -/
theorem blk7_0_apply (t : Fin cfg7.N) (p : Fin 10000) (q : Fin 10) (hg : t.val * 10000 + p.val < 100000) :
    (iblk7 (F := Ideal) V c 0 t : S10000x10.Idx → EReal) (ix2 p q)
      = (V c main_v91 : S100000x10.Idx → EReal) (ix2 (⟨t.val * 10000 + p.val, hg⟩ : Fin 100000) q) := by
  obtain ⟨e0, e1, -⟩ := idx_facts7 t
  unfold iblk7
  show (V c main_v91 : S100000x10.Idx → EReal) (((cfg7.win 0).blk t).view.emb (ix2 p q)) = _
  refine congrArg _ (funext fun a => Fin.ext ?_)
  match a with
  | ⟨0, _⟩ => show win7_0.index t (0 : Fin 2) * 10000 + 1 * p.val = t.val * 10000 + p.val; rw [e0]; omega
  | ⟨1, _⟩ => show win7_0.index t (1 : Fin 2) * 10 + 1 * q.val = q.val; rw [e1]; omega

/-- Entry (p, q) of tile t of the dense product is entry (10000·t + p, q) of the array. -/
theorem blk7_1_apply (t : Fin cfg7.N) (p : Fin 10000) (q : Fin 10) (hg : t.val * 10000 + p.val < 100000) :
    (iblk7 (F := Ideal) V c 1 t : S10000x10.Idx → EReal) (ix2 p q)
      = (V c main_v78 : S100000x10.Idx → EReal) (ix2 (⟨t.val * 10000 + p.val, hg⟩ : Fin 100000) q) := by
  obtain ⟨-, -, e0, e1, -⟩ := idx_facts7 t
  unfold iblk7
  show (V c main_v78 : S100000x10.Idx → EReal) (((cfg7.win 1).blk t).view.emb (ix2 p q)) = _
  refine congrArg _ (funext fun a => Fin.ext ?_)
  match a with
  | ⟨0, _⟩ => show win7_1.index t (0 : Fin 2) * 10000 + 1 * p.val = t.val * 10000 + p.val; rw [e0]; omega
  | ⟨1, _⟩ => show win7_1.index t (1 : Fin 2) * 10 + 1 * q.val = q.val; rw [e1]; omega

/-- Entry (p, 0) of tile t of the column is entry (10000·t + p, 0) of the column. -/
theorem blk7_2_apply (t : Fin cfg7.N) (p : Fin 10000) (hg : t.val * 10000 + p.val < 100000) :
    (iblk7 (F := Ideal) V c 2 t : S10000x1.Idx → EReal) (ix2 p (0 : Fin 1))
      = (V c main_v28 : S100000x1.Idx → EReal) (ix2 (⟨t.val * 10000 + p.val, hg⟩ : Fin 100000) (0 : Fin 1)) := by
  obtain ⟨-, -, -, -, e0, e1, -⟩ := idx_facts7 t
  unfold iblk7
  show (V c main_v28 : S100000x1.Idx → EReal) (((cfg7.win 2).blk t).view.emb (ix2 p (0 : Fin 1))) = _
  refine congrArg _ (funext fun a => Fin.ext ?_)
  match a with
  | ⟨0, _⟩ => show win7_2.index t (0 : Fin 2) * 10000 + 1 * p.val = t.val * 10000 + p.val; rw [e0]; omega
  | ⟨1, _⟩ => show win7_2.index t (1 : Fin 2) * 1 + 1 * 0 = 0; rw [e1]

/-- The one tile of the bias row is the row. -/
theorem blk7_3_apply (t : Fin cfg7.N) (q : Fin 10) :
    (iblk7 (F := Ideal) V c 3 t : S1x10.Idx → EReal) (ix2 (0 : Fin 1) q)
      = (V c main_v92 : S1x10.Idx → EReal) (ix2 (0 : Fin 1) q) := by
  obtain ⟨-, -, -, -, -, -, e0, e1, -⟩ := idx_facts7 t
  unfold iblk7
  show (V c main_v92 : S1x10.Idx → EReal) (((cfg7.win 3).blk t).view.emb (ix2 (0 : Fin 1) q)) = _
  refine congrArg _ (funext fun a => Fin.ext ?_)
  match a with
  | ⟨0, _⟩ => show win7_3.index t (0 : Fin 2) * 1 + 1 * 0 = 0; rw [e0]
  | ⟨1, _⟩ => show win7_3.index t (1 : Fin 2) * 10 + 1 * q.val = q.val; rw [e1]; omega

/-- Entry (p, q) of the result's tile t sits at entry (10000·t + p, q) of the result. -/
theorem emb7_4 (t : Fin cfg7.N) (p : Fin 10000) (q : Fin 10) (hg : t.val * 10000 + p.val < 100000) :
    (((cfg7.win 4).blk t).view.emb (ix2 p q) : S100000x10.Idx) = ix2 (⟨t.val * 10000 + p.val, hg⟩ : Fin 100000) q := by
  obtain ⟨-, -, -, -, -, -, -, -, e0, e1⟩ := idx_facts7 t
  funext a
  apply Fin.ext
  match a with
  | ⟨0, _⟩ => show win7_4.index t (0 : Fin 2) * 10000 + 1 * p.val = t.val * 10000 + p.val; rw [e0]; omega
  | ⟨1, _⟩ => show win7_4.index t (1 : Fin 2) * 10 + 1 * q.val = q.val; rw [e1]; omega

end Blocks

/-! ## What a point writes back, and the cover -/

/-- WHAT POINT t WRITES BACK is tile t of the layer's combine of the arrays the region finds. -/
theorem flushed7_4_eq (V : (c : Dev nD) → (b : Ref sig .tc) → Buf (Elt Ideal) ((c : Thread nD τ).loc b)) (c : Dev nD)
    (d : (⟨S100000, .f32⟩ : BufTy).Contents (Elt Ideal)) (b : (⟨S10, .f32⟩ : BufTy).Contents (Elt Ideal))
    (hd : ∀ p : Fin 100000, (V c main_v28 : S100000x1.Idx → EReal) (ix2 p (0 : Fin 1)) = d (ix1 p))
    (hb : ∀ q : Fin 10, (V c main_v92 : S1x10.Idx → EReal) (ix2 (0 : Fin 1) q) = b (ix1 q)) (t : Fin cfg7.N) :
    (dat7 (F := Ideal) V c).flushed 4 t
      = ((cfg7.win 4).blk t).view.read (Elt Ideal) (Cert.Layer.comb4 (F := Ideal) (V c main_v91) (V c main_v78) d b) := by
  show (cfg7.win 4).cut (grid7.coords t) ((dat7 V c).after 4 t) = _
  rw [after7_4]
  unfold out7_4
  rw [View.canon_unit_zero hz7]
  simp only [View.ld_unit_zero (S := S10000x10) hz7, View.ld_unit_zero (S := S10000x1) hz7, View.ld_unit_zero (S := S1x10) hz7]
  funext j
  obtain ⟨p, q, rfl⟩ : ∃ (p : Fin 10000) (q : Fin 10), j = ix2 p q := ⟨j 0, j 1, eq_ix2 j⟩
  have hg : t.val * 10000 + p.val < 100000 := by have := t_lt7 t; have := p.isLt; omega
  show k7_pay1 (F := Ideal) (iblk7 V c 0 t) (iblk7 V c 2 t) (iblk7 V c 1 t) (iblk7 V c 3 t) (ix2 p q)
    = Cert.Layer.comb4 (F := Ideal) (V c main_v91) (V c main_v78) d b (((cfg7.win 4).blk t).view.emb (ix2 p q))
  rw [emb7_4 t p q hg, comb4_apply, pay7_apply, blk7_0_apply V c t p q hg, blk7_1_apply V c t p q hg,
    blk7_2_apply V c t p hg, blk7_3_apply V c t q, hd, hb]

/-- An index of the result is in point t's tile iff each coordinate is in the tile's range on its axis. -/
theorem mem_blk7_4 (t : Fin cfg7.N) (i : S100000x10.Idx) :
    i ∈ ((cfg7.win 4).blk t).view.set ↔ ∀ a : Fin 2, win7_4.index t a * S10000x10.size a ≤ (i a).val
      ∧ (i a).val < win7_4.index t a * S10000x10.size a + S10000x10.size a := by
  show i ∈ ((View.whole main_v93).slice (win7_4.rect t)).set ↔ _
  rw [View.set_slice_whole, Rect.mem_set_unit]
  exact Iff.rfl

/-- Every entry of the result is in some point's tile: row g is in tile g / 10000. -/
theorem cover7 (i : S100000x10.Idx) : ∃ t : Fin cfg7.N, (cfg7.win 4).flush t = true ∧ i ∈ ((cfg7.win 4).blk t).view.set := by
  have hi0 : (i 0).val < 100000 := idx2_lt0 i
  have hi1 : (i 1).val < 10 := idx2_lt1 i
  have ht : (i 0).val / 10000 < cfg7.N := lt_of_lt_of_eq (by omega : (i 0).val / 10000 < 10) N_7.symm
  refine ⟨⟨(i 0).val / 10000, ht⟩, flush7_4 _, ?_⟩
  obtain ⟨-, -, -, -, -, -, -, -, e0, e1⟩ := idx_facts7 ⟨(i 0).val / 10000, ht⟩
  rw [mem_blk7_4]
  intro a
  match a with
  | ⟨0, _⟩ =>
    show win7_4.index ⟨(i 0).val / 10000, ht⟩ (0 : Fin 2) * 10000 ≤ (i 0).val
      ∧ (i 0).val < win7_4.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win7_4.index ⟨(i 0).val / 10000, ht⟩ (1 : Fin 2) * 10 ≤ (i 1).val
      ∧ (i 1).val < win7_4.index ⟨(i 0).val / 10000, ht⟩ (1 : Fin 2) * 10 + 10
    rw [e1]; omega

/-! ## The region -/

/-- After the region, its result array is the layer's combine of the arrays it was given, when the column it
    finds is the vector `d` stood up as a column and the row it finds is the vector `b` laid as a row. -/
theorem comb_region7 (V : (c : Dev nD) → (b : Ref sig .tc) → Buf (Elt Ideal) ((c : Thread nD τ).loc b)) (c : Dev nD)
    (d : (⟨S100000, .f32⟩ : BufTy).Contents (Elt Ideal)) (b : (⟨S10, .f32⟩ : BufTy).Contents (Elt Ideal))
    (hd : ∀ p : Fin 100000, (V c main_v28 : S100000x1.Idx → EReal) (ix2 p (0 : Fin 1)) = d (ix1 p))
    (hb : ∀ q : Fin 10, (V c main_v92 : S1x10.Idx → EReal) (ix2 (0 : Fin 1) q) = b (ix1 q)) :
    (dat7 (F := Ideal) V c).arrAt 4 cfg7.N = Cert.Layer.comb4 (F := Ideal) (V c main_v91) (V c main_v78) d b :=
  (dat7 (F := Ideal) V c).arrAt_eq_of_cover 4 _ (fun t _ => flushed7_4_eq V c d b hd hb t) cover7

end Cert.KernelIdeal.Regions

end
-- ==== Proof.Chain.lean ====
/-
  The idealized kernel's buffers at each segment boundary are the reference's stages.

  Reading the run's fold boundary by boundary: after the first stretch of host operations the edge endpoints,
  the edge coefficient dinv[src]·dinv[dst], the squared inverse-root degrees and the joined features are the
  reference's own terms of the arguments (the two programs apply the same operations); each dense-product region
  leaves h · W of what it finds, which is the reference's product stage; each stretch between regions gathers,
  scales and scatter-adds with the same operations as the reference, so it leaves the reference's aggregate of
  the same product; each combine region leaves max ((agg + d · y) + b, 0) — the reference's self-loop, bias and
  relu stages composed — where d reaches the kernel as a column and b as a row; and the last stretch pools the
  last layer's result exactly as the reference does. So the result buffer ends at the reference's result term.
-/
import proofs.«137348_j2937757630534_1_alg».proof.Proof.Gen.KernelIdeal.Frame
import proofs.«137348_j2937757630534_1_alg».proof.Proof.RefStages
import proofs.«137348_j2937757630534_1_alg».proof.Proof.LayerSpec
import proofs.«137348_j2937757630534_1_alg».proof.Proof.Carry
import proofs.«137348_j2937757630534_1_alg».proof.Proof.LinRegion0
import proofs.«137348_j2937757630534_1_alg».proof.Proof.LinRegion2
import proofs.«137348_j2937757630534_1_alg».proof.Proof.LinRegion4
import proofs.«137348_j2937757630534_1_alg».proof.Proof.LinRegion6
import proofs.«137348_j2937757630534_1_alg».proof.Proof.CombRegion1
import proofs.«137348_j2937757630534_1_alg».proof.Proof.CombRegion3
import proofs.«137348_j2937757630534_1_alg».proof.Proof.CombRegion5
import proofs.«137348_j2937757630534_1_alg».proof.Proof.CombRegion7
import Idealize.ShloMosaic.Lib.ValueIdx
import Idealize.ShloMosaic.Lib.ValueLayout
import Idealize.ShloMosaic.Lib.Pipeline.Value

set_option maxRecDepth 16384

noncomputable section

namespace Cert.KernelIdeal.Chain

open Cert.KernelIdeal Cert.KernelIdeal.Gen Cert.KernelIdeal.Carry Cert.KernelIdeal.Regions
open Idealize.ShloMosaic Idealize.ShloMosaic.TcCoe Idealize.ShloMosaic.ValueIdx Idealize.SL.Sem Idealize.ShloMosaic.StableHlo
open Cert.ReferenceIdeal.Read (val_main_v1 val_main_v3 val_main_v28 val_main_v42 val_main_v12 val_main_v13 val_main_v175 val_main_v41 val_main_v50 val_main_v51 val_main_v79 val_main_v88 val_main_v89 val_main_v117 val_main_v126 val_main_v127 val_main_v155 val_main_v163)

/-- A vector [a] stood up as a column [a, 1] reads, at (p, u), the vector at p. -/
theorem column_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

variable (m : (ℓ : Loc nD τ sig) → Buf (Elt Ideal) ℓ) (ρ : Dev nD → PrngReg) (c : Dev nD)

/-! ## After the first stretch -/

theorem src1 : W1 m ρ c (Proc.devRef .tc main_v1) = val_main_v1 (F := Ideal) (m ((c : Thread nD τ).loc main_arg2)) := by
  show StableHlo.after hostOps0 (W0 m ρ c) (Proc.devRef .tc main_v1) = _
  after_results_simp <;> rfl
theorem dst1 : W1 m ρ c (Proc.devRef .tc main_v3) = val_main_v3 (F := Ideal) (m ((c : Thread nD τ).loc main_arg2)) := by
  show StableHlo.after hostOps0 (W0 m ρ c) (Proc.devRef .tc main_v3) = _
  after_results_simp <;> rfl
theorem coef1 : W1 m ρ c (Proc.devRef .tc main_v26) = val_main_v28 (F := Ideal) (m ((c : Thread nD τ).loc main_arg2)) := by
  show StableHlo.after hostOps0 (W0 m ρ c) (Proc.devRef .tc main_v26) = _
  after_results_simp <;> rfl
theorem feat1 : W1 m ρ c (Proc.devRef .tc main_v29) = val_main_v12 (F := Ideal) (m ((c : Thread nD τ).loc main_arg0)) (m ((c : Thread nD τ).loc main_arg1)) := by
  show StableHlo.after hostOps0 (W0 m ρ c) (Proc.devRef .tc main_v29) = _
  after_results_simp <;> rfl
/-- The column of squared inverse-root degrees is the reference's vector dinv · dinv stood up as a column. -/
theorem col1 (p : Fin 100000) :
    (W1 m ρ c (Proc.devRef .tc main_v28) : S100000x1.Idx → EReal) (ix2 p (0 : Fin 1)) = val_main_v42 (F := Ideal) (m ((c : Thread nD τ).loc main_arg2)) (ix1 p) := by
  have e : W1 m ρ c (Proc.devRef .tc main_v28)
      = shapeCast S100000x1 (val_main_v42 (F := Ideal) (m ((c : Thread nD τ).loc main_arg2))) shapeCasts_S100000_S100000x1 := by
    show StableHlo.after hostOps0 (W0 m ρ c) (Proc.devRef .tc main_v28) = _
    after_results_simp <;> rfl
  rw [e]
  exact column_apply _ _ p 0
theorem arg3_1 : W1 m ρ c (Proc.devRef .tc main_arg3) = m ((c : Thread nD τ).loc main_arg3) := by
  show StableHlo.after hostOps0 (W0 m ρ c) (Proc.devRef .tc main_arg3) = _
  after_results_simp <;> rfl
theorem arg4_1 : W1 m ρ c (Proc.devRef .tc main_arg4) = m ((c : Thread nD τ).loc main_arg4) := by
  show StableHlo.after hostOps0 (W0 m ρ c) (Proc.devRef .tc main_arg4) = _
  after_results_simp <;> rfl
theorem arg5_1 : W1 m ρ c (Proc.devRef .tc main_arg5) = m ((c : Thread nD τ).loc main_arg5) := by
  show StableHlo.after hostOps0 (W0 m ρ c) (Proc.devRef .tc main_arg5) = _
  after_results_simp <;> rfl
theorem arg6_1 : W1 m ρ c (Proc.devRef .tc main_arg6) = m ((c : Thread nD τ).loc main_arg6) := by
  show StableHlo.after hostOps0 (W0 m ρ c) (Proc.devRef .tc main_arg6) = _
  after_results_simp <;> rfl
theorem arg7_1 : W1 m ρ c (Proc.devRef .tc main_arg7) = m ((c : Thread nD τ).loc main_arg7) := by
  show StableHlo.after hostOps0 (W0 m ρ c) (Proc.devRef .tc main_arg7) = _
  after_results_simp <;> rfl
theorem arg8_1 : W1 m ρ c (Proc.devRef .tc main_arg8) = m ((c : Thread nD τ).loc main_arg8) := by
  show StableHlo.after hostOps0 (W0 m ρ c) (Proc.devRef .tc main_arg8) = _
  after_results_simp <;> rfl
theorem arg9_1 : W1 m ρ c (Proc.devRef .tc main_arg9) = m ((c : Thread nD τ).loc main_arg9) := by
  show StableHlo.after hostOps0 (W0 m ρ c) (Proc.devRef .tc main_arg9) = _
  after_results_simp <;> rfl
theorem arg10_1 : W1 m ρ c (Proc.devRef .tc main_arg10) = m ((c : Thread nD τ).loc main_arg10) := by
  show StableHlo.after hostOps0 (W0 m ρ c) (Proc.devRef .tc main_arg10) = _
  after_results_simp <;> rfl
theorem arg11_1 : W1 m ρ c (Proc.devRef .tc main_arg11) = m ((c : Thread nD τ).loc main_arg11) := by
  show StableHlo.after hostOps0 (W0 m ρ c) (Proc.devRef .tc main_arg11) = _
  after_results_simp <;> rfl

/-! ## Layer 1's dense product -/

theorem product1 : W2 m ρ c (Proc.devRef .tc main_v30) = val_main_v13 (F := Ideal) (m ((c : Thread nD τ).loc main_arg0)) (m ((c : Thread nD τ).loc main_arg1)) (m ((c : Thread nD τ).loc main_arg4)) :=
  (W2_arr m ρ c 2).trans ((lin_region0 (V1 m ρ) c).trans
    ((congrArg₂ (Cert.Layer.lin1 (F := Ideal)) (feat1 m ρ c) (arg4_1 m ρ c)).trans rfl))

/-! ## Layer 1: the aggregate, the combine, the next dense product -/

theorem agg1 : W3 m ρ c (Proc.devRef .tc main_v43) = val_main_v41 (F := Ideal) (m ((c : Thread nD τ).loc main_arg0)) (m ((c : Thread nD τ).loc main_arg1)) (m ((c : Thread nD τ).loc main_arg2)) (m ((c : Thread nD τ).loc main_arg4)) := by
  show StableHlo.after hostOps1 (W2 m ρ c) (Proc.devRef .tc main_v43) = _
  after_results_simp
  rw [((kept2 m ρ c main_v26 (by decide)).trans (coef1 m ρ c)), ((kept2 m ρ c main_v1 (by decide)).trans (src1 m ρ c)), ((kept2 m ρ c main_v3 (by decide)).trans (dst1 m ρ c)), product1 m ρ c]
  rfl
theorem row1 (q : Fin 32) :
    (W3 m ρ c (Proc.devRef .tc main_v44) : S1x32.Idx → EReal) (ix2 (0 : Fin 1) q) = m ((c : Thread nD τ).loc main_arg5) (ix1 q) := by
  have e : W3 m ρ c (Proc.devRef .tc main_v44) = shapeCast S1x32 (m ((c : Thread nD τ).loc main_arg5)) shapeCasts_S32_S1x32 := by
    show StableHlo.after hostOps1 (W2 m ρ c) (Proc.devRef .tc main_v44) = _
    after_results_simp
    rw [((kept2 m ρ c main_arg5 (by decide)).trans (arg5_1 m ρ c))]
    rfl
  rw [e]
  exact shapeCast_a_1a_apply _ _ 0 q
theorem act1 : W4 m ρ c (Proc.devRef .tc main_v45) = val_main_v50 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (W4_arr m ρ c 4).trans ((comb_region1 (V3 m ρ) c (val_main_v42 (F := Ideal) (m ((c : Thread nD τ).loc main_arg2))) (m ((c : Thread nD τ).loc main_arg5))
      (fun p => (congrFun (kept3 m ρ c main_v28 (by decide)) (ix2 p (0 : Fin 1))).trans (col1 m ρ c p))
      (row1 m ρ c)).trans
    ((congrArg₂ (fun a y => Cert.Layer.comb1 (F := Ideal) a y (val_main_v42 (F := Ideal) (m ((c : Thread nD τ).loc main_arg2))) (m ((c : Thread nD τ).loc main_arg5)))
      (agg1 m ρ c) ((product1_kept m ρ c).trans (product1 m ρ c))).trans rfl))
theorem product2 : W5 m ρ c (Proc.devRef .tc main_v46) = val_main_v51 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W5_arr m ρ c 2).trans ((lin_region2 (V4 m ρ) c).trans
    ((congrArg₂ (Cert.Layer.lin2 (F := Ideal)) (act1 m ρ c) ((kept4 m ρ c main_arg6 (by decide)).trans (arg6_1 m ρ c))).trans rfl))

/-! ## Layer 2: the aggregate, the combine, the next dense product -/

theorem agg2 : W6 m ρ c (Proc.devRef .tc main_v59) = val_main_v79 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps3 (W5 m ρ c) (Proc.devRef .tc main_v59) = _
  after_results_simp
  rw [((kept5 m ρ c main_v26 (by decide)).trans (coef1 m ρ c)), ((kept5 m ρ c main_v1 (by decide)).trans (src1 m ρ c)), ((kept5 m ρ c main_v3 (by decide)).trans (dst1 m ρ c)), product2 m ρ c]
  rfl
theorem row2 (q : Fin 64) :
    (W6 m ρ c (Proc.devRef .tc main_v60) : S1x64.Idx → EReal) (ix2 (0 : Fin 1) q) = m ((c : Thread nD τ).loc main_arg7) (ix1 q) := by
  have e : W6 m ρ c (Proc.devRef .tc main_v60) = shapeCast S1x64 (m ((c : Thread nD τ).loc main_arg7)) shapeCasts_S64_S1x64 := by
    show StableHlo.after hostOps3 (W5 m ρ c) (Proc.devRef .tc main_v60) = _
    after_results_simp
    rw [((kept5 m ρ c main_arg7 (by decide)).trans (arg7_1 m ρ c))]
    rfl
  rw [e]
  exact shapeCast_a_1a_apply _ _ 0 q
theorem act2 : W7 m ρ c (Proc.devRef .tc main_v61) = val_main_v88 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W7_arr m ρ c 4).trans ((comb_region3 (V6 m ρ) c (val_main_v42 (F := Ideal) (m ((c : Thread nD τ).loc main_arg2))) (m ((c : Thread nD τ).loc main_arg7))
      (fun p => (congrFun (kept6 m ρ c main_v28 (by decide)) (ix2 p (0 : Fin 1))).trans (col1 m ρ c p))
      (row2 m ρ c)).trans
    ((congrArg₂ (fun a y => Cert.Layer.comb2 (F := Ideal) a y (val_main_v42 (F := Ideal) (m ((c : Thread nD τ).loc main_arg2))) (m ((c : Thread nD τ).loc main_arg7)))
      (agg2 m ρ c) ((product2_kept m ρ c).trans (product2 m ρ c))).trans rfl))
theorem product3 : W8 m ρ c (Proc.devRef .tc main_v62) = val_main_v89 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_arr m ρ c 2).trans ((lin_region4 (V7 m ρ) c).trans
    ((congrArg₂ (Cert.Layer.lin3 (F := Ideal)) (act2 m ρ c) ((kept7 m ρ c main_arg8 (by decide)).trans (arg8_1 m ρ c))).trans rfl))

/-! ## Layer 3: the aggregate, the combine, the next dense product -/

theorem agg3 : W9 m ρ c (Proc.devRef .tc main_v75) = val_main_v117 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W8 m ρ c) (Proc.devRef .tc main_v75) = _
  after_results_simp
  rw [((kept8 m ρ c main_v26 (by decide)).trans (coef1 m ρ c)), ((kept8 m ρ c main_v1 (by decide)).trans (src1 m ρ c)), ((kept8 m ρ c main_v3 (by decide)).trans (dst1 m ρ c)), product3 m ρ c]
  rfl
theorem row3 (q : Fin 128) :
    (W9 m ρ c (Proc.devRef .tc main_v76) : S1x128.Idx → EReal) (ix2 (0 : Fin 1) q) = m ((c : Thread nD τ).loc main_arg9) (ix1 q) := by
  have e : W9 m ρ c (Proc.devRef .tc main_v76) = shapeCast S1x128 (m ((c : Thread nD τ).loc main_arg9)) shapeCasts_S128_S1x128 := by
    show StableHlo.after hostOps5 (W8 m ρ c) (Proc.devRef .tc main_v76) = _
    after_results_simp
    rw [((kept8 m ρ c main_arg9 (by decide)).trans (arg9_1 m ρ c))]
    rfl
  rw [e]
  exact shapeCast_a_1a_apply _ _ 0 q
theorem act3 : W10 m ρ c (Proc.devRef .tc main_v77) = val_main_v126 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W10_arr m ρ c 4).trans ((comb_region5 (V9 m ρ) c (val_main_v42 (F := Ideal) (m ((c : Thread nD τ).loc main_arg2))) (m ((c : Thread nD τ).loc main_arg9))
      (fun p => (congrFun (kept9 m ρ c main_v28 (by decide)) (ix2 p (0 : Fin 1))).trans (col1 m ρ c p))
      (row3 m ρ c)).trans
    ((congrArg₂ (fun a y => Cert.Layer.comb3 (F := Ideal) a y (val_main_v42 (F := Ideal) (m ((c : Thread nD τ).loc main_arg2))) (m ((c : Thread nD τ).loc main_arg9)))
      (agg3 m ρ c) ((product3_kept m ρ c).trans (product3 m ρ c))).trans rfl))
theorem product4 : W11 m ρ c (Proc.devRef .tc main_v78) = val_main_v127 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W11_arr m ρ c 2).trans ((lin_region6 (V10 m ρ) c).trans
    ((congrArg₂ (Cert.Layer.lin4 (F := Ideal)) (act3 m ρ c) ((kept10 m ρ c main_arg10 (by decide)).trans (arg10_1 m ρ c))).trans rfl))

/-! ## Layer 4: the aggregate, the combine -/

theorem agg4 : W12 m ρ c (Proc.devRef .tc main_v91) = val_main_v155 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps7 (W11 m ρ c) (Proc.devRef .tc main_v91) = _
  after_results_simp
  rw [((kept11 m ρ c main_v26 (by decide)).trans (coef1 m ρ c)), ((kept11 m ρ c main_v1 (by decide)).trans (src1 m ρ c)), ((kept11 m ρ c main_v3 (by decide)).trans (dst1 m ρ c)), product4 m ρ c]
  rfl
theorem row4 (q : Fin 10) :
    (W12 m ρ c (Proc.devRef .tc main_v92) : S1x10.Idx → EReal) (ix2 (0 : Fin 1) q) = m ((c : Thread nD τ).loc main_arg11) (ix1 q) := by
  have e : W12 m ρ c (Proc.devRef .tc main_v92) = shapeCast S1x10 (m ((c : Thread nD τ).loc main_arg11)) shapeCasts_S10_S1x10 := by
    show StableHlo.after hostOps7 (W11 m ρ c) (Proc.devRef .tc main_v92) = _
    after_results_simp
    rw [((kept11 m ρ c main_arg11 (by decide)).trans (arg11_1 m ρ c))]
    rfl
  rw [e]
  exact shapeCast_a_1a_apply _ _ 0 q
theorem act4 : W13 m ρ c (Proc.devRef .tc main_v93) = val_main_v163 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W13_arr m ρ c 4).trans ((comb_region7 (V12 m ρ) c (val_main_v42 (F := Ideal) (m ((c : Thread nD τ).loc main_arg2))) (m ((c : Thread nD τ).loc main_arg11))
      (fun p => (congrFun (kept12 m ρ c main_v28 (by decide)) (ix2 p (0 : Fin 1))).trans (col1 m ρ c p))
      (row4 m ρ c)).trans
    ((congrArg₂ (fun a y => Cert.Layer.comb4 (F := Ideal) a y (val_main_v42 (F := Ideal) (m ((c : Thread nD τ).loc main_arg2))) (m ((c : Thread nD τ).loc main_arg11)))
      (agg4 m ρ c) ((product4_kept m ρ c).trans (product4 m ρ c))).trans rfl))

/-! ## The mean pool -/

/-- The result buffer ends at the reference's result term of the arguments. -/
theorem result : W14 m ρ c (Proc.devRef .tc main_v105) = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps8 (W13 m ρ c) (Proc.devRef .tc main_v105) = _
  after_results_simp
  rw [act4 m ρ c, ((kept13 m ρ c main_arg3 (by decide)).trans (arg3_1 m ρ c))]
  rfl

end Cert.KernelIdeal.Chain

end
-- ==== Proof.lean ====
/-
  A four-layer graph convolution network with a mean pool, as eight tiled TensorCore regions among host
  operations, against its plain reference: the two idealized programs compute the same function of the arguments.

  Both programs build the degrees, the normalisation dinv = deg^(-1/2), the edge coefficient dinv[src] · dinv[dst]
  and the joined features with the same host operations. Each layer is h · W, a gather of its rows along the
  edges scaled by the coefficient and scatter-added into the target rows, then (agg + dinv² · (h · W)) + b, with a
  maximum against zero in the first three layers. The kernel computes h · W and the combine in regions tiled over
  10000 rows at a time; on the extended reals a tile of rows of a product is the product of the tile of rows,
  and the combine is pointwise, so each region leaves exactly the reference's stage and no law of arithmetic
  beyond that is used: in particular nothing here needs the inputs to be finite. The mean pool is the same host
  operations on both sides.

  The frames of the two kernel programs are the generated frame certificates; the reference's frame is its
  generated run with the result dropped; the idealization changed no operation, so what it preserves is trivial.
-/
import proofs.«137348_j2937757630534_1_alg».proof.Defs
import proofs.«137348_j2937757630534_1_alg».proof.Proof.Gen.Kernel
import proofs.«137348_j2937757630534_1_alg».proof.Proof.Gen.Kernel.Skeleton
import proofs.«137348_j2937757630534_1_alg».proof.Proof.Gen.Kernel.Launch
import proofs.«137348_j2937757630534_1_alg».proof.Proof.Gen.Kernel.Points
import proofs.«137348_j2937757630534_1_alg».proof.Proof.Gen.Kernel.Frame
import proofs.«137348_j2937757630534_1_alg».proof.Proof.Gen.KernelIdeal
import proofs.«137348_j2937757630534_1_alg».proof.Proof.Gen.KernelIdeal.Skeleton
import proofs.«137348_j2937757630534_1_alg».proof.Proof.Gen.KernelIdeal.Launch
import proofs.«137348_j2937757630534_1_alg».proof.Proof.Gen.KernelIdeal.Points
import proofs.«137348_j2937757630534_1_alg».proof.Proof.Gen.KernelIdeal.Frame
import proofs.«137348_j2937757630534_1_alg».proof.Proof.Gen.ReferenceIdeal
import proofs.«137348_j2937757630534_1_alg».proof.Proof.Gen.Pre_finite_inputs
import proofs.«137348_j2937757630534_1_alg».proof.Proof.RefStages
import proofs.«137348_j2937757630534_1_alg».proof.Proof.KernelRun
import proofs.«137348_j2937757630534_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel ends with its result at the reference's result term of its own arguments (the run's last
    boundary read at the result buffer), and the reference at that term of ITS arguments, which agree. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Chain.result m ρ c), (h c).2⟩)
    (Cert.KernelIdeal.RunValue.run_value (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v175_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
